-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S265182x256 : Shape := ⟨2, ![265182, 256]⟩
abbrev S2048 : Shape := ⟨1, ![2048]⟩
abbrev S_ : Shape := ⟨0, ![]⟩

class Facts : Prop where
  bcast_S_S265182x256 : S_.BroadcastsInDim S265182x256 (![] : Fin 0 → Fin S265182x256.rank)
  reducesTo_S265182x256_S_d0_1 : S265182x256.ReducesTo [0, 1] S_
  h_S_ : 0 < S_.numel

variable [Facts]

def fn {F : FTy → Type} [FloatOps F] (main_arg0 : FVec F S265182x256 .f32) (main_arg1 : IVec S2048 32) : IVec S_ 1 :=
  let main_v0 : FVec F S265182x256 .f32 := Host.absf main_arg0
  let main_cst : FVec F S_ .f32 := constant S_ .f32 0x7F800000#32
  let main_v1 : FVec F S265182x256 .f32 := broadcastInDim S265182x256 ![] bcast_S_S265182x256 main_cst
  let main_v2 : IVec S265182x256 1 := cmpf .olt main_v0 main_v1
  let main_c : IVec S_ 1 := constantI S_ 1 1#1
  let main_v3 : IVec S_ 1 := (fun x v => Host.reduce IntOp.andi x v reducesTo_S265182x256_S_d0_1 h_S_) main_v2 main_c
  main_v3
-- ==== Kernel.lean ====
abbrev S265182x256 : Shape := ⟨2, ![265182, 256]⟩
abbrev S2048 : Shape := ⟨1, ![2048]⟩
abbrev S1 : Shape := ⟨1, ![1]⟩
abbrev S2047 : Shape := ⟨1, ![2047]⟩
abbrev S_ : Shape := ⟨0, ![]⟩
abbrev S265182 : Shape := ⟨1, ![265182]⟩
abbrev S2048x1 : Shape := ⟨2, ![2048, 1]⟩
abbrev S265182x1 : Shape := ⟨2, ![265182, 1]⟩
abbrev S1x1 : Shape := ⟨2, ![1, 1]⟩
abbrev S266240x256 : Shape := ⟨2, ![266240, 256]⟩
abbrev S266240 : Shape := ⟨1, ![266240]⟩
abbrev S1x266240 : Shape := ⟨2, ![1, 266240]⟩
abbrev S2048x256 : Shape := ⟨2, ![2048, 256]⟩
abbrev S1x2048 : Shape := ⟨2, ![1, 2048]⟩
abbrev S512x256 : Shape := ⟨2, ![512, 256]⟩
abbrev S512x2048 : Shape := ⟨2, ![512, 2048]⟩

abbrev nBuf : Space → Nat
  | .hbm => 67
  | .vmem => 7
  | .smem => 0
  | _ => 0

abbrev bufTy : (tb : Table) → Fin (tcTables nBuf tb) → BufTy
  | .hbm, ⟨0, _⟩ => ⟨S265182x256, .f32⟩
  | .hbm, ⟨1, _⟩ => ⟨S2048, .i32⟩
  | .hbm, ⟨2, _⟩ => ⟨S2048, .i32⟩
  | .hbm, ⟨3, _⟩ => ⟨S1, .i32⟩
  | .hbm, ⟨4, _⟩ => ⟨S2047, .i32⟩
  | .hbm, ⟨5, _⟩ => ⟨S2048, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S2048, .i32⟩
  | .hbm, ⟨10, _⟩ => ⟨S_, .i32⟩
  | .hbm, ⟨11, _⟩ => ⟨S_, .i32⟩
  | .hbm, ⟨12, _⟩ => ⟨S2048, .i32⟩
  | .hbm, ⟨13, _⟩ => ⟨S_, .i32⟩
  | .hbm, ⟨14, _⟩ => ⟨S265182, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S2048x1, .i32⟩
  | .hbm, ⟨23, _⟩ => ⟨S_, .i32⟩
  | .hbm, ⟨24, _⟩ => ⟨S2048, .i32⟩
  | .hbm, ⟨25, _⟩ => ⟨S265182, .i32⟩
  | .hbm, ⟨26, _⟩ => ⟨S_, .i32⟩
  | .hbm, ⟨27, _⟩ => ⟨S_, .i32⟩
  | .hbm, ⟨28, _⟩ => ⟨S265182, .i32⟩
  | .hbm, ⟨29, _⟩ => ⟨S_, .i32⟩
  | .hbm, ⟨30, _⟩ => ⟨S265182, .i32⟩
  | .hbm, ⟨31, _⟩ => ⟨S265182, .i32⟩
  | .hbm, ⟨32, _⟩ => ⟨S_, .i32⟩
  | .hbm, ⟨33, _⟩ => ⟨S265182, .i32⟩
  | .hbm, ⟨34, _⟩ => ⟨S265182, .i1⟩
  | .hbm, ⟨35, _⟩ => ⟨S_, .i32⟩
  | .hbm, ⟨36, _⟩ => ⟨S265182, .i32⟩
  | .hbm, ⟨37, _⟩ => ⟨S265182, .i32⟩
  | .hbm, ⟨38, _⟩ => ⟨S265182, .i32⟩
  | .hbm, ⟨39, _⟩ => ⟨S265182x1, .i32⟩
  | .hbm, ⟨40, _⟩ => ⟨S1, .i32⟩
  | .hbm, ⟨41, _⟩ => ⟨S_, .i32⟩
  | .hbm, ⟨42, _⟩ => ⟨S265182x1, .i32⟩
  | .hbm, ⟨43, _⟩ => ⟨S265182x1, .i1⟩
  | .hbm, ⟨44, _⟩ => ⟨S1x1, .i32⟩
  | .hbm, ⟨45, _⟩ => ⟨S265182x1, .i32⟩
  | .hbm, ⟨46, _⟩ => ⟨S265182x1, .i1⟩
  | .hbm, ⟨47, _⟩ => ⟨S265182x1, .i1⟩
  | .hbm, ⟨48, _⟩ => ⟨S_, .i1⟩
  | .hbm, ⟨49, _⟩ => ⟨S265182, .i1⟩
  | .hbm, ⟨50, _⟩ => ⟨S265182, .i32⟩
  | .hbm, ⟨51, _⟩ => ⟨S_, .i32⟩
  | .hbm, ⟨52, _⟩ => ⟨S265182, .i32⟩
  | .hbm, ⟨53, _⟩ => ⟨S265182, .i32⟩
  | .hbm, ⟨54, _⟩ => ⟨S_, .i32⟩
  | .hbm, ⟨55, _⟩ => ⟨S_, .f32⟩
  | .hbm, ⟨56, _⟩ => ⟨S266240x256, .f32⟩
  | .hbm, ⟨57, _⟩ => ⟨S_, .i32⟩
  | .hbm, ⟨58, _⟩ => ⟨S_, .i32⟩
  | .hbm, ⟨59, _⟩ => ⟨S266240, .i32⟩
  | .hbm, ⟨60, _⟩ => ⟨S1x266240, .i32⟩
  | .hbm, ⟨61, _⟩ => ⟨S2048x256, .f32⟩
  | .hbm, ⟨62, _⟩ => ⟨S_, .i32⟩
  | .hbm, ⟨63, _⟩ => ⟨S_, .i32⟩
  | .hbm, ⟨64, _⟩ => ⟨S_, .f32⟩
  | .hbm, ⟨65, _⟩ => ⟨S2048x256, .f32⟩
  | .hbm, ⟨66, _⟩ => ⟨S2048x256, .f32⟩
  | .local _ .vmem, ⟨0, _⟩ => ⟨S1x2048, .i32⟩
  | .local _ .vmem, ⟨1, _⟩ => ⟨S1x2048, .i32⟩
  | .local _ .vmem, ⟨2, _⟩ => ⟨S2048x256, .f32⟩
  | .local _ .vmem, ⟨3, _⟩ => ⟨S2048x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S265182x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_call1_call0_c : Ref sig .tc := ⟨.hbm, 10, rfl⟩
abbrev main_call1_call0_v0 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_c_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_call2_call0_c : Ref sig .tc := ⟨.hbm, 26, rfl⟩
abbrev main_call2_call0_v0 : Ref sig .tc := ⟨.hbm, 27, rfl⟩
abbrev main_v14 : Ref sig .tc := ⟨.hbm, 28, rfl⟩
abbrev main_c_5 : Ref sig .tc := ⟨.hbm, 29, rfl⟩
abbrev main_v15 : Ref sig .tc := ⟨.hbm, 30, rfl⟩
abbrev main_v16 : Ref sig .tc := ⟨.hbm, 31, rfl⟩
abbrev main_call3_c : Ref sig .tc := ⟨.hbm, 32, rfl⟩
abbrev main_call3_v0 : Ref sig .tc := ⟨.hbm, 33, rfl⟩
abbrev main_call3_v1 : Ref sig .tc := ⟨.hbm, 34, rfl⟩
abbrev main_call3_c_0 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_call3_v5 : Ref sig .tc := ⟨.hbm, 39, rfl⟩
abbrev main_call3_c_1 : Ref sig .tc := ⟨.hbm, 40, rfl⟩
abbrev main_call3_c_2 : Ref sig .tc := ⟨.hbm, 41, rfl⟩
abbrev main_call3_v6 : Ref sig .tc := ⟨.hbm, 42, rfl⟩
abbrev main_call3_v7 : Ref sig .tc := ⟨.hbm, 43, rfl⟩
abbrev main_call3_v8 : Ref sig .tc := ⟨.hbm, 44, rfl⟩
abbrev main_call3_v9 : Ref sig .tc := ⟨.hbm, 45, rfl⟩
abbrev main_call3_v10 : Ref sig .tc := ⟨.hbm, 46, rfl⟩
abbrev main_call3_v11 : Ref sig .tc := ⟨.hbm, 47, rfl⟩
abbrev main_call3_c_3 : Ref sig .tc := ⟨.hbm, 48, rfl⟩
abbrev main_call3_v12 : Ref sig .tc := ⟨.hbm, 49, rfl⟩
abbrev main_call3_v13 : Ref sig .tc := ⟨.hbm, 50, rfl⟩
abbrev main_call3_c_4 : Ref sig .tc := ⟨.hbm, 51, rfl⟩
abbrev main_call3_v14 : Ref sig .tc := ⟨.hbm, 52, rfl⟩
abbrev main_v17 : Ref sig .tc := ⟨.hbm, 53, rfl⟩
abbrev main_c_6 : Ref sig .tc := ⟨.hbm, 54, rfl⟩
abbrev main_call4_v0 : Ref sig .tc := ⟨.hbm, 55, rfl⟩
abbrev main_v18 : Ref sig .tc := ⟨.hbm, 56, rfl⟩
abbrev main_c_7 : Ref sig .tc := ⟨.hbm, 57, rfl⟩
abbrev main_call5_v0 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_c_8 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 130], ![false, false]⟩

def k0_cond2 (i : grid0.Coords) : BitVec 1 :=
  let arg1 : BitVec 32 := BitVec.ofNat 32 (i 1).val
  let c129_i32 : BitVec 32 := 129#32
  let v24 : BitVec 1 := Scalar.cmpi .eq arg1 c129_i32
  let v25 : BitVec 32 := Scalar.extui v24
  let c0_i32_8 : BitVec 32 := 0#32
  let v26 : BitVec 1 := Scalar.cmpi .ne v25 c0_i32_8
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S2048_S1_2047 : S2048.Slices ![2047] S1
  slices_S2048_S2047_0 : S2048.Slices ![0] S2047
  concatenates_S1_S2047_S2048_d0 : Shape.Concatenates [S1, S2047] S2048 0
  bcast_S_S1 : S_.BroadcastsInDim S1 (![] : Fin 0 → Fin S1.rank)
  bcast_S_S_ : S_.BroadcastsInDim S_ (![] : Fin 0 → Fin S_.rank)
  reduceWindows_S2048_S2048_w2048s1p2047_0 : S2048.ReduceWindows (![2048] : Fin 1 → Nat) ![1] ![2047] ![0] S2048
  h_S_ : 0 < S_.numel
  bcast_S_S265182 : S_.BroadcastsInDim S265182 (![] : Fin 0 → Fin S265182.rank)
  bcast_S_S2048 : S_.BroadcastsInDim S2048 (![] : Fin 0 → Fin S2048.rank)
  bcast_S2048_S2048x1_0 : S2048.BroadcastsInDim S2048x1 (![0] : Fin 1 → Fin S2048x1.rank)
  reduceWindows_S265182_S265182_w265182s1p265181_0 : S265182.ReduceWindows (![265182] : Fin 1 → Nat) ![1] ![265181] ![0] S265182
  bcast_S265182_S265182x1_0 : S265182.BroadcastsInDim S265182x1 (![0] : Fin 1 → Fin S265182x1.rank)
  bcast_S_S265182x1 : S_.BroadcastsInDim S265182x1 (![] : Fin 0 → Fin S265182x1.rank)
  bcast_S1_S1x1_1 : S1.BroadcastsInDim S1x1 (![1] : Fin 1 → Fin S1x1.rank)
  bcast_S1x1_S265182x1_0_1 : S1x1.BroadcastsInDim S265182x1 (![0, 1] : Fin 2 → Fin S265182x1.rank)
  reducesTo_S265182x1_S265182_d1 : S265182x1.ReducesTo [1] S265182
  pads_S265182x256_S266240x256_010580_000 : S265182x256.Pads (![0, 0] : Fin 2 → Nat) ![1058, 0] ![0, 0] S266240x256
  pads_S265182_S266240_010580 : S265182.Pads (![0] : Fin 1 → Nat) ![1058] ![0] S266240
  shapeCasts_S266240_S1x266240 : S266240.ShapeCasts S1x266240
  inb_S512x256_S512x256_0_0 : ∀ a, (![0, 0] : Fin 2 → Nat) a + S512x256.size a ≤ S512x256.size a
  h_S512x256 : 0 < S512x256.numel
  shapeCasts_S512x256_S512x256 : S512x256.ShapeCasts S512x256
  iota_S512x2048_d0_w32 : S512x2048.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  natLt_1_32 : 1 < 32
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reducesTo_S2048_S_d0 : S2048.ReducesTo [0] S_
  bcast_S_S2048x256 : S_.BroadcastsInDim S2048x256 (![] : Fin 0 → Fin S2048x256.rank)
  scatter_S2048_S1_S__n_0_0_0_wf : ScatterDims.WF S2048 S1 S_ [] [0] [0] 0
  scatter_S265182_S2048x1_S2048_n_0_0_1_wf : ScatterDims.WF S265182 S2048x1 S2048 [] [0] [0] 1
  gather_S2048_S265182x1_S265182_n_0_n_n_0_1_1_wf : GatherDims.WF S2048 S265182x1 S265182 [] [0] [] [0] [] 1 ![1]
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x266240.size a
  hwx0_0 : ∀ i : grid0.Coords, EltTy.bits .i32 = 32 ∨ (Rect.block (s := S1x266240) S1x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S266240x256.size a
  hwx0_1 : ∀ i : grid0.Coords, EltTy.bits .f32 = 32 ∨ (Rect.block (s := S266240x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S2048x256.size a
  hwx0_2 : ∀ i : grid0.Coords, EltTy.bits .f32 = 32 ∨ (Rect.block (s := S2048x256) S512x256.size (cc0_transform_2 i) (hinb0_2 i)).WholeWords (EltTy.packing .f32)

variable [Facts₀]

def scatter_S2048_S1_S__n_0_0_0 : ScatterDims S2048 S1 S_ where
  updateWindowDims := []
  insertedWindowDims := [0]
  scatterDimsToOperandDims := [0]
  indexVectorDim := 0
  wf := scatter_S2048_S1_S__n_0_0_0_wf
def scatter_S265182_S2048x1_S2048_n_0_0_1 : ScatterDims S265182 S2048x1 S2048 where
  updateWindowDims := []
  insertedWindowDims := [0]
  scatterDimsToOperandDims := [0]
  indexVectorDim := 1
  wf := scatter_S265182_S2048x1_S2048_n_0_0_1_wf
def gather_S2048_S265182x1_S265182_n_0_n_n_0_1_1 : GatherDims S2048 S265182x1 S265182 where
  offsetDims := []
  collapsedSliceDims := [0]
  operandBatchingDims := []
  startIndicesBatchingDims := []
  startIndexMap := [0]
  indexVectorDim := 1
  sliceSizes := ![1]
  wf := gather_S2048_S265182x1_S265182_n_0_n_n_0_1_1_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_v20) S1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S265182x256 : Shape := ⟨2, ![265182, 256]⟩
abbrev S2048 : Shape := ⟨1, ![2048]⟩
abbrev S1 : Shape := ⟨1, ![1]⟩
abbrev S2047 : Shape := ⟨1, ![2047]⟩
abbrev S_ : Shape := ⟨0, ![]⟩
abbrev S265182 : Shape := ⟨1, ![265182]⟩
abbrev S2048x1 : Shape := ⟨2, ![2048, 1]⟩
abbrev S265182x1 : Shape := ⟨2, ![265182, 1]⟩
abbrev S1x1 : Shape := ⟨2, ![1, 1]⟩
abbrev S2048x256 : Shape := ⟨2, ![2048, 256]⟩

abbrev nBuf : Space → Nat
  | .hbm => 63
  | .vmem => 0
  | .smem => 0
  | _ => 0

abbrev bufTy : (tb : Table) → Fin (tcTables nBuf tb) → BufTy
  | .hbm, ⟨0, _⟩ => ⟨S265182x256, .f32⟩
  | .hbm, ⟨1, _⟩ => ⟨S2048, .i32⟩
  | .hbm, ⟨2, _⟩ => ⟨S2048, .i32⟩
  | .hbm, ⟨3, _⟩ => ⟨S1, .i32⟩
  | .hbm, ⟨4, _⟩ => ⟨S2047, .i32⟩
  | .hbm, ⟨5, _⟩ => ⟨S2048, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S2048, .i32⟩
  | .hbm, ⟨10, _⟩ => ⟨S_, .i32⟩
  | .hbm, ⟨11, _⟩ => ⟨S_, .i32⟩
  | .hbm, ⟨12, _⟩ => ⟨S2048, .i32⟩
  | .hbm, ⟨13, _⟩ => ⟨S_, .i32⟩
  | .hbm, ⟨14, _⟩ => ⟨S265182, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S2048x1, .i32⟩
  | .hbm, ⟨23, _⟩ => ⟨S_, .i32⟩
  | .hbm, ⟨24, _⟩ => ⟨S2048, .i32⟩
  | .hbm, ⟨25, _⟩ => ⟨S265182, .i32⟩
  | .hbm, ⟨26, _⟩ => ⟨S_, .i32⟩
  | .hbm, ⟨27, _⟩ => ⟨S_, .i32⟩
  | .hbm, ⟨28, _⟩ => ⟨S265182, .i32⟩
  | .hbm, ⟨29, _⟩ => ⟨S_, .i32⟩
  | .hbm, ⟨30, _⟩ => ⟨S265182, .i32⟩
  | .hbm, ⟨31, _⟩ => ⟨S265182, .i32⟩
  | .hbm, ⟨32, _⟩ => ⟨S_, .i32⟩
  | .hbm, ⟨33, _⟩ => ⟨S265182, .i32⟩
  | .hbm, ⟨34, _⟩ => ⟨S265182, .i1⟩
  | .hbm, ⟨35, _⟩ => ⟨S_, .i32⟩
  | .hbm, ⟨36, _⟩ => ⟨S265182, .i32⟩
  | .hbm, ⟨37, _⟩ => ⟨S265182, .i32⟩
  | .hbm, ⟨38, _⟩ => ⟨S265182, .i32⟩
  | .hbm, ⟨39, _⟩ => ⟨S265182x1, .i32⟩
  | .hbm, ⟨40, _⟩ => ⟨S1, .i32⟩
  | .hbm, ⟨41, _⟩ => ⟨S_, .i32⟩
  | .hbm, ⟨42, _⟩ => ⟨S265182x1, .i32⟩
  | .hbm, ⟨43, _⟩ => ⟨S265182x1, .i1⟩
  | .hbm, ⟨44, _⟩ => ⟨S1x1, .i32⟩
  | .hbm, ⟨45, _⟩ => ⟨S265182x1, .i32⟩
  | .hbm, ⟨46, _⟩ => ⟨S265182x1, .i1⟩
  | .hbm, ⟨47, _⟩ => ⟨S265182x1, .i1⟩
  | .hbm, ⟨48, _⟩ => ⟨S_, .i1⟩
  | .hbm, ⟨49, _⟩ => ⟨S265182, .i1⟩
  | .hbm, ⟨50, _⟩ => ⟨S265182, .i32⟩
  | .hbm, ⟨51, _⟩ => ⟨S_, .i32⟩
  | .hbm, ⟨52, _⟩ => ⟨S265182, .i32⟩
  | .hbm, ⟨53, _⟩ => ⟨S265182, .i32⟩
  | .hbm, ⟨54, _⟩ => ⟨S_, .f32⟩
  | .hbm, ⟨55, _⟩ => ⟨S2048x256, .f32⟩
  | .hbm, ⟨56, _⟩ => ⟨S265182x1, .i32⟩
  | .hbm, ⟨57, _⟩ => ⟨S2048x256, .f32⟩
  | .hbm, ⟨58, _⟩ => ⟨S_, .i32⟩
  | .hbm, ⟨59, _⟩ => ⟨S_, .i32⟩
  | .hbm, ⟨60, _⟩ => ⟨S_, .f32⟩
  | .hbm, ⟨61, _⟩ => ⟨S2048x256, .f32⟩
  | .hbm, ⟨62, _⟩ => ⟨S2048x256, .f32⟩
  | _, _ => ⟨S265182x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_call1_call0_c : Ref sig .tc := ⟨.hbm, 10, rfl⟩
abbrev main_call1_call0_v0 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_c_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_call2_call0_c : Ref sig .tc := ⟨.hbm, 26, rfl⟩
abbrev main_call2_call0_v0 : Ref sig .tc := ⟨.hbm, 27, rfl⟩
abbrev main_v14 : Ref sig .tc := ⟨.hbm, 28, rfl⟩
abbrev main_c_5 : Ref sig .tc := ⟨.hbm, 29, rfl⟩
abbrev main_v15 : Ref sig .tc := ⟨.hbm, 30, rfl⟩
abbrev main_v16 : Ref sig .tc := ⟨.hbm, 31, rfl⟩
abbrev main_call3_c : Ref sig .tc := ⟨.hbm, 32, rfl⟩
abbrev main_call3_v0 : Ref sig .tc := ⟨.hbm, 33, rfl⟩
abbrev main_call3_v1 : Ref sig .tc := ⟨.hbm, 34, rfl⟩
abbrev main_call3_c_0 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_call3_v5 : Ref sig .tc := ⟨.hbm, 39, rfl⟩
abbrev main_call3_c_1 : Ref sig .tc := ⟨.hbm, 40, rfl⟩
abbrev main_call3_c_2 : Ref sig .tc := ⟨.hbm, 41, rfl⟩
abbrev main_call3_v6 : Ref sig .tc := ⟨.hbm, 42, rfl⟩
abbrev main_call3_v7 : Ref sig .tc := ⟨.hbm, 43, rfl⟩
abbrev main_call3_v8 : Ref sig .tc := ⟨.hbm, 44, rfl⟩
abbrev main_call3_v9 : Ref sig .tc := ⟨.hbm, 45, rfl⟩
abbrev main_call3_v10 : Ref sig .tc := ⟨.hbm, 46, rfl⟩
abbrev main_call3_v11 : Ref sig .tc := ⟨.hbm, 47, rfl⟩
abbrev main_call3_c_3 : Ref sig .tc := ⟨.hbm, 48, rfl⟩
abbrev main_call3_v12 : Ref sig .tc := ⟨.hbm, 49, rfl⟩
abbrev main_call3_v13 : Ref sig .tc := ⟨.hbm, 50, rfl⟩
abbrev main_call3_c_4 : Ref sig .tc := ⟨.hbm, 51, rfl⟩
abbrev main_call3_v14 : Ref sig .tc := ⟨.hbm, 52, rfl⟩
abbrev main_v17 : Ref sig .tc := ⟨.hbm, 53, rfl⟩
abbrev main_cst : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_c_6 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩

abbrev nD : Nat := 1
abbrev τ : Topo := Topo.v7x

variable {F : FTy → Type} [FloatOps F]

class Facts₀ : Prop where
  slices_S2048_S1_2047 : S2048.Slices ![2047] S1
  slices_S2048_S2047_0 : S2048.Slices ![0] S2047
  concatenates_S1_S2047_S2048_d0 : Shape.Concatenates [S1, S2047] S2048 0
  bcast_S_S1 : S_.BroadcastsInDim S1 (![] : Fin 0 → Fin S1.rank)
  bcast_S_S_ : S_.BroadcastsInDim S_ (![] : Fin 0 → Fin S_.rank)
  reduceWindows_S2048_S2048_w2048s1p2047_0 : S2048.ReduceWindows (![2048] : Fin 1 → Nat) ![1] ![2047] ![0] S2048
  h_S_ : 0 < S_.numel
  bcast_S_S265182 : S_.BroadcastsInDim S265182 (![] : Fin 0 → Fin S265182.rank)
  bcast_S_S2048 : S_.BroadcastsInDim S2048 (![] : Fin 0 → Fin S2048.rank)
  bcast_S2048_S2048x1_0 : S2048.BroadcastsInDim S2048x1 (![0] : Fin 1 → Fin S2048x1.rank)
  reduceWindows_S265182_S265182_w265182s1p265181_0 : S265182.ReduceWindows (![265182] : Fin 1 → Nat) ![1] ![265181] ![0] S265182
  bcast_S265182_S265182x1_0 : S265182.BroadcastsInDim S265182x1 (![0] : Fin 1 → Fin S265182x1.rank)
  bcast_S_S265182x1 : S_.BroadcastsInDim S265182x1 (![] : Fin 0 → Fin S265182x1.rank)
  bcast_S1_S1x1_1 : S1.BroadcastsInDim S1x1 (![1] : Fin 1 → Fin S1x1.rank)
  bcast_S1x1_S265182x1_0_1 : S1x1.BroadcastsInDim S265182x1 (![0, 1] : Fin 2 → Fin S265182x1.rank)
  reducesTo_S265182x1_S265182_d1 : S265182x1.ReducesTo [1] S265182
  bcast_S_S2048x256 : S_.BroadcastsInDim S2048x256 (![] : Fin 0 → Fin S2048x256.rank)
  reducesTo_S2048_S_d0 : S2048.ReducesTo [0] S_
  scatter_S2048_S1_S__n_0_0_0_wf : ScatterDims.WF S2048 S1 S_ [] [0] [0] 0
  scatter_S265182_S2048x1_S2048_n_0_0_1_wf : ScatterDims.WF S265182 S2048x1 S2048 [] [0] [0] 1
  gather_S2048_S265182x1_S265182_n_0_n_n_0_1_1_wf : GatherDims.WF S2048 S265182x1 S265182 [] [0] [] [0] [] 1 ![1]
  scatter_S2048x256_S265182x1_S265182x256_1_0_0_1_wf : ScatterDims.WF S2048x256 S265182x1 S265182x256 [1] [0] [0] 1

variable [Facts₀]

def scatter_S2048_S1_S__n_0_0_0 : ScatterDims S2048 S1 S_ where
  updateWindowDims := []
  insertedWindowDims := [0]
  scatterDimsToOperandDims := [0]
  indexVectorDim := 0
  wf := scatter_S2048_S1_S__n_0_0_0_wf
def scatter_S265182_S2048x1_S2048_n_0_0_1 : ScatterDims S265182 S2048x1 S2048 where
  updateWindowDims := []
  insertedWindowDims := [0]
  scatterDimsToOperandDims := [0]
  indexVectorDim := 1
  wf := scatter_S265182_S2048x1_S2048_n_0_0_1_wf
def gather_S2048_S265182x1_S265182_n_0_n_n_0_1_1 : GatherDims S2048 S265182x1 S265182 where
  offsetDims := []
  collapsedSliceDims := [0]
  operandBatchingDims := []
  startIndicesBatchingDims := []
  startIndexMap := [0]
  indexVectorDim := 1
  sliceSizes := ![1]
  wf := gather_S2048_S265182x1_S265182_n_0_n_n_0_1_1_wf
def scatter_S2048x256_S265182x1_S265182x256_1_0_0_1 : ScatterDims S2048x256 S265182x1 S265182x256 where
  updateWindowDims := [1]
  insertedWindowDims := [0]
  scatterDimsToOperandDims := [0]
  indexVectorDim := 1
  wf := scatter_S2048x256_S265182x1_S265182x256_1_0_0_1_wf

class Facts : Prop extends Facts₀ where

variable [Facts]
-- ==== Proof.SegSpec.lean ====
/-
  The per-graph sums of a node array. Row `r` of the node array carries a 32-bit segment word; read as a signed
  integer it names the graph the row belongs to, and a word outside `[0, 2048)` names no graph. Entry `(g, d)` of the
  result is the sum, over the rows whose word is `g`, of column `d` — over the extended reals, where a sum over a
  finite set does not depend on how it is arranged.
-/
import Idealize.ShloMosaic.PureOps.Ideal
import Idealize.ShloMosaic.Lib.ValueIdx

noncomputable section

open scoped BigOperators

namespace Cert.SegSpec

open Idealize.ShloMosaic Idealize.ShloMosaic.ValueIdx

/-- The segment words: one per row. -/
abbrev SN : Shape := ⟨1, ![265182]⟩
/-- The same words as a column (the scatter's index array). -/
abbrev SNx1 : Shape := ⟨2, ![265182, 1]⟩
/-- The node array: 265182 rows of 256 columns. -/
abbrev SNxD : Shape := ⟨2, ![265182, 256]⟩
/-- The result: 2048 graphs by 256 columns. -/
abbrev SGxD : Shape := ⟨2, ![2048, 256]⟩

/-- Entry `(g, d)` of the per-graph sums: column `d` summed over the rows whose segment word, read signed, is `g`. -/
def segSumAt (seg : SN.Idx → BitVec 32) (emb : SNxD.Idx → EReal) (g : Fin 2048) (d : Fin 256) : EReal :=
  ∑ r : Fin 265182, if (seg (ix1 r)).toInt = (g.val : Int) then emb (ix2 r d) else 0

/-- The per-graph sums as an array. -/
def segSum (seg : SN.Idx → BitVec 32) (emb : SNxD.Idx → EReal) : SGxD.Idx → EReal :=
  fun i => segSumAt seg emb (i 0) (i 1)

theorem segSum_ix2 (seg : SN.Idx → BitVec 32) (emb : SNxD.Idx → EReal) (g : Fin 2048) (d : Fin 256) :
    segSum seg emb (ix2 g d) = segSumAt seg emb g d := rfl

/-- The dimension numbers of a scatter of whole rows: update `(r, d)` goes to row `idx (r, 0)`, column `d`. -/
def rowScatter : ScatterDims SGxD SNx1 SNxD where
  updateWindowDims := [1]
  insertedWindowDims := [0]
  scatterDimsToOperandDims := [0]
  indexVectorDim := 1

/-- Row `k` of tile `j` of the node array padded to 130 tiles of 2048 rows. -/
def tileRow (j : Fin 130) (k : Fin 2048) : Fin 266240 :=
  ⟨j.val * 2048 + k.val, by have := j.isLt; have := k.isLt; omega⟩

theorem tileRow_val (j : Fin 130) (k : Fin 2048) : (tileRow j k).val = j.val * 2048 + k.val := rfl

end Cert.SegSpec

end
-- ==== Proof.SegTiles.lean ====
/-
  The one-hot products of the 130 tiles of the padded node array, summed over the tiles, are the per-graph sums.
  A padding row carries the all-ones word and a zero row, so it adds nothing, and the rows of the tiles are exactly the rows below 266240.
-/
import proofs.«134707_j6468220748681_2_alg».proof.Proof.SegSpec

noncomputable section

open scoped BigOperators

namespace Cert.SegSpec

open Idealize.ShloMosaic Idealize.ShloMosaic.ValueIdx

/-- A graph number below 2048, as a 32-bit word, equals a word exactly when that word read signed is the graph number. -/
theorem ofNat_eq_iff_toInt (g : Fin 2048) (s : BitVec 32) :
    BitVec.ofNat 32 g.val = s ↔ s.toInt = (g.val : Int) := by
  have hg := g.isLt
  have hs := s.isLt
  constructor
  · intro h
    subst h
    rw [BitVec.toInt_eq_toNat_cond, BitVec.toNat_ofNat]
    have hm : g.val % 2 ^ 32 = g.val := Nat.mod_eq_of_lt (by omega)
    rw [hm]
    split <;> omega
  · intro h
    apply BitVec.eq_of_toNat_eq
    rw [BitVec.toNat_ofNat]
    rw [BitVec.toInt_eq_toNat_cond] at h
    split at h <;> omega

/-- The rows of the tiles, as a pairing of (tile, row in tile) with the rows below 266240. -/
def tileEquiv : Fin 130 × Fin 2048 ≃ Fin 266240 where
  toFun p := tileRow p.1 p.2
  invFun r := (⟨r.val / 2048, by have := r.isLt; omega⟩, ⟨r.val % 2048, by omega⟩)
  left_inv := by
    rintro ⟨j, k⟩
    have hj := j.isLt
    have hk := k.isLt
    apply Prod.ext <;> apply Fin.ext <;> simp only [tileRow_val] <;> omega
  right_inv := by
    intro r
    apply Fin.ext
    simp only [tileRow_val]
    omega

/-- A sum over the tiles and the rows of each tile is the sum over the rows below 266240. -/
theorem sum_tiles {M : Type*} [AddCommMonoid M] (F : Fin 266240 → M) :
    (∑ j : Fin 130, ∑ k : Fin 2048, F (tileRow j k)) = ∑ r : Fin 266240, F r := by
  rw [← Fintype.sum_prod_type' (fun j k => F (tileRow j k))]
  exact Equiv.sum_comp tileEquiv F

/-- A sum over `Fin n` whose summand vanishes from `m` on is the sum over `Fin m`. -/
theorem sum_fin_pad {M : Type*} [AddCommMonoid M] {m n : ℕ} (h : m ≤ n) (G : Fin m → M) :
    (∑ r : Fin n, (if h' : r.val < m then G ⟨r.val, h'⟩ else 0)) = ∑ r : Fin m, G r := by
  obtain ⟨k, rfl⟩ := Nat.exists_eq_add_of_le h
  rw [Fin.sum_univ_add]
  have h1 : ∀ i : Fin m,
      (if h' : (Fin.castAdd k i).val < m then G ⟨(Fin.castAdd k i).val, h'⟩ else 0) = G i := by
    intro i
    simp
  have h2 : ∀ i : Fin k,
      (if h' : (Fin.natAdd m i).val < m then G ⟨(Fin.natAdd m i).val, h'⟩ else 0) = 0 := by
    intro i
    simp
  simp only [h1, h2, Finset.sum_const_zero, add_zero]

theorem tiles_eq (seg : SN.Idx → BitVec 32) (emb : SNxD.Idx → EReal)
    (segp : Fin 266240 → BitVec 32) (embp : Fin 266240 → Fin 256 → EReal)
    (hseg : ∀ r : Fin 266240, segp r =
      if h : r.val < 265182 then seg (ix1 (⟨r.val, h⟩ : Fin 265182)) else 4294967295#32)
    (hemb : ∀ (r : Fin 266240) (d : Fin 256), embp r d =
      if h : r.val < 265182 then emb (ix2 (⟨r.val, h⟩ : Fin 265182) d) else 0)
    (g : Fin 2048) (d : Fin 256) :
    (∑ j : Fin 130, ∑ k : Fin 2048,
        (if BitVec.ofNat 32 g.val = segp (tileRow j k) then (1 : EReal) else 0) * embp (tileRow j k) d)
      = segSumAt seg emb g d := by
  have hF : ∀ r : Fin 266240,
      (if BitVec.ofNat 32 g.val = segp r then (1 : EReal) else 0) * embp r d
        = if h : r.val < 265182 then
            (if (seg (ix1 (⟨r.val, h⟩ : Fin 265182))).toInt = (g.val : Int)
              then emb (ix2 (⟨r.val, h⟩ : Fin 265182) d) else 0)
          else 0 := by
    intro r
    rw [hseg r, hemb r d]
    by_cases h : r.val < 265182
    · simp only [dif_pos h, ofNat_eq_iff_toInt]
      split_ifs
      · exact one_mul _
      · exact zero_mul _
    · simp only [dif_neg h, mul_zero]
  rw [sum_tiles (fun r => (if BitVec.ofNat 32 g.val = segp r then (1 : EReal) else 0) * embp r d)]
  simp only [hF]
  exact sum_fin_pad (by norm_num)
    (fun r : Fin 265182 => if (seg (ix1 r)).toInt = (g.val : Int) then emb (ix2 r d) else 0)

end Cert.SegSpec

end
-- ==== Proof.SegPad.lean ====
/-
  A host pad of the segment words, or of the node array, by 1058 rows after the last reads, at a row below 265182, the operand there,
  and at a later row the padding value. The padded words viewed as a single row of 266240 columns read the same entries.
-/
import proofs.«134707_j6468220748681_2_alg».proof.Proof.SegSpec
import Idealize.ShloMosaic.Lib.KernelVsHost
import Idealize.ShloMosaic.Lib.Pipeline.Value

noncomputable section

namespace Cert.SegSpec

open Idealize.ShloMosaic Idealize.ShloMosaic.ValueIdx

/-- The segment words padded to 266240 rows. -/
abbrev SNP : Shape := ⟨1, ![266240]⟩
/-- The padded words as one row. -/
abbrev S1xNP : Shape := ⟨2, ![1, 266240]⟩
/-- The node array padded to 266240 rows. -/
abbrev SNPxD : Shape := ⟨2, ![266240, 256]⟩
/-- The shape of a single value. -/
abbrev S0 : Shape := ⟨0, ![]⟩

/-- The padded words at row `r`: the word of row `r` below 265182, the padding value from there on. -/
theorem padVec_apply {α : Type} (x : SN.Idx → α) (v : S0.Idx → α)
    (h : SN.Pads ![0] ![1058] ![0] SNP) (hu : 0 < S0.numel) (r : Fin 266240) :
    pad SNP ![0] ![1058] ![0] x v h hu (ix1 r)
      = if h' : r.val < 265182 then x (ix1 (⟨r.val, h'⟩ : Fin 265182)) else v (Shape.Idx.first hu) := by
  by_cases h' : r.val < 265182
  · rw [dif_pos h']
    refine pad_apply_of_inside ![0] ![1058] ![0] x v h hu (ix1 r) (ix1 (⟨r.val, h'⟩ : Fin 265182)) ?_
    intro a
    match a with
    | ⟨0, _⟩ =>
      show r.val = 0 + r.val * (0 + 1)
      omega
  · rw [dif_neg h']
    refine pad_apply_of_not_inside ![0] ![1058] ![0] x v h hu (ix1 r) (⟨0, by decide⟩ : Fin 1) ?_
    show ¬(0 ≤ r.val ∧ (r.val - 0) % (0 + 1) = 0 ∧ (r.val - 0) / (0 + 1) < 265182)
    omega

theorem padRow_apply {α : Type} (x : SN.Idx → α) (v : S0.Idx → α)
    (h : SN.Pads ![0] ![1058] ![0] SNP) (hu : 0 < S0.numel) (hc : SNP.ShapeCasts S1xNP) (r : Fin 266240) :
    shapeCast S1xNP (pad SNP ![0] ![1058] ![0] x v h hu) hc (ix2 (0 : Fin 1) r)
      = if h' : r.val < 265182 then x (ix1 (⟨r.val, h'⟩ : Fin 265182)) else v (Shape.Idx.first hu) := by
  refine (shapeCast_addUnit_apply ![266240] (pad SNP ![0] ![1058] ![0] x v h hu) hc (ix2 (0 : Fin 1) r)).trans ?_
  have e : (fun a : Fin 1 => (ix2 (0 : Fin 1) r : S1xNP.Idx) a.succ) = (ix1 r : SNP.Idx) := by
    funext a
    match a with
    | ⟨0, _⟩ => rfl
  exact (congrArg (pad SNP ![0] ![1058] ![0] x v h hu) e).trans (padVec_apply x v h hu r)

theorem padRows_apply {α : Type} (x : SNxD.Idx → α) (v : S0.Idx → α)
    (h : SNxD.Pads ![0, 0] ![1058, 0] ![0, 0] SNPxD) (hu : 0 < S0.numel) (r : Fin 266240) (d : Fin 256) :
    pad SNPxD ![0, 0] ![1058, 0] ![0, 0] x v h hu (ix2 r d)
      = if h' : r.val < 265182 then x (ix2 (⟨r.val, h'⟩ : Fin 265182) d) else v (Shape.Idx.first hu) := by
  have hd := d.isLt
  by_cases h' : r.val < 265182
  · rw [dif_pos h']
    refine pad_apply_of_inside ![0, 0] ![1058, 0] ![0, 0] x v h hu (ix2 r d)
      (ix2 (⟨r.val, h'⟩ : Fin 265182) d) ?_
    intro a
    match a with
    | ⟨0, _⟩ =>
      show r.val = 0 + r.val * (0 + 1)
      omega
    | ⟨1, _⟩ =>
      show d.val = 0 + d.val * (0 + 1)
      omega
  · rw [dif_neg h']
    refine pad_apply_of_not_inside ![0, 0] ![1058, 0] ![0, 0] x v h hu (ix2 r d) (⟨0, by decide⟩ : Fin 2) ?_
    show ¬(0 ≤ r.val ∧ (r.val - 0) % (0 + 1) = 0 ∧ (r.val - 0) / (0 + 1) < 265182)
    omega

end Cert.SegSpec

end
-- ==== Proof.KPieces.lean ====
/-
  What one run of the kernel body leaves behind, as values. The body adds to a 512 x 256 accumulator the product of a
  512 x 2048 indicator matrix (row `p`, column `k` is one exactly when row `k` of the tile carries the segment word of
  graph `512 i + p`) with the tile's 2048 x 256 rows. At the first tile the accumulator is first set to zero; at the
  last tile the accumulator is also copied to the output block. In each case the accumulator ends at the same
  expression of the tile's blocks and of what it held before (zero, at the first tile).
-/
import proofs.«134707_j6468220748681_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

theorem hz : (![0, 0] : Fin 2 → Nat) = fun _ => 0 := funext fun a => by fin_cases a <;> rfl

/-- A middle tile: the accumulator, holding `xs0`, ends at the body's sum of `xs0` and the tile's product. -/
theorem acc_B (c : Dev nD) (i : grid0.Coords) (arg2 : Memref sig .tc .vmem S1x2048 .i32) (harg2 : arg2.IsWhole) (arg3 : Memref sig .tc .vmem S2048x256 .f32) (harg3 : arg3.IsWhole) (arg4 : Memref sig .tc .vmem S512x256 .f32) (harg4 : arg4.IsWhole) (arg5 : Memref sig .tc .vmem S512x256 .f32) (harg5 : arg5.IsWhole) (hc0 : ¬cond0_0 i) (hc1 : ¬cond0_1 i)
    (x0 : Vec F S1x2048 .i32) (x1 : Vec F S2048x256 .f32) (xs0 : Vec F S512x256 .f32) :
    sout0_B_0 c i arg2 harg2 arg3 harg3 arg4 harg4 arg5 harg5 hc0 hc1 x0 x1 xs0 = k0_pay2 i x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg5.read_unread, View.ld_unit_zero (S := S1x2048) hz, View.ld_unit_zero (S := S2048x256) hz, View.ld_unit_zero (S := S512x256) hz]

/-- The first tile: the accumulator is set to zero, then ends at the body's sum of that zero block and the tile's product. -/
theorem acc_A (c : Dev nD) (i : grid0.Coords) (arg2 : Memref sig .tc .vmem S1x2048 .i32) (harg2 : arg2.IsWhole) (arg3 : Memref sig .tc .vmem S2048x256 .f32) (harg3 : arg3.IsWhole) (arg4 : Memref sig .tc .vmem S512x256 .f32) (harg4 : arg4.IsWhole) (arg5 : Memref sig .tc .vmem S512x256 .f32) (harg5 : arg5.IsWhole) (hc0 : cond0_0 i) (hc1 : ¬cond0_1 i)
    (x0 : Vec F S1x2048 .i32) (x1 : Vec F S2048x256 .f32) :
    sout0_A_0 c i arg2 harg2 arg3 harg3 arg4 harg4 arg5 harg5 hc0 hc1 x0 x1 = k0_pay2 i x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S512x256) hz, View.readCov_unit_zero (S := S512x256) _ hz]
  simp only [View.readAt_eq_ld, harg2.read_unread, harg3.read_unread, harg5.read_unread, View.ld_unit_zero (S := S1x2048) hz, View.ld_unit_zero (S := S2048x256) hz, View.ld_unit_zero (S := S512x256) hz]

/-- The last tile: the accumulator ends as at a middle tile, -/
theorem acc_C (c : Dev nD) (i : grid0.Coords) (arg2 : Memref sig .tc .vmem S1x2048 .i32) (harg2 : arg2.IsWhole) (arg3 : Memref sig .tc .vmem S2048x256 .f32) (harg3 : arg3.IsWhole) (arg4 : Memref sig .tc .vmem S512x256 .f32) (harg4 : arg4.IsWhole) (arg5 : Memref sig .tc .vmem S512x256 .f32) (harg5 : arg5.IsWhole) (hc0 : ¬cond0_0 i) (hc1 : cond0_1 i)
    (x0 : Vec F S1x2048 .i32) (x1 : Vec F S2048x256 .f32) (xs0 : Vec F S512x256 .f32) :
    sout0_C_0 c i arg2 harg2 arg3 harg3 arg4 harg4 arg5 harg5 hc0 hc1 x0 x1 xs0 = k0_pay2 i x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S1x2048) hz, View.ld_unit_zero (S := S2048x256) hz, View.ld_unit_zero (S := S512x256) hz]

/-- and the output block is a copy of it. -/
theorem out_C (c : Dev nD) (i : grid0.Coords) (arg2 : Memref sig .tc .vmem S1x2048 .i32) (harg2 : arg2.IsWhole) (arg3 : Memref sig .tc .vmem S2048x256 .f32) (harg3 : arg3.IsWhole) (arg4 : Memref sig .tc .vmem S512x256 .f32) (harg4 : arg4.IsWhole) (arg5 : Memref sig .tc .vmem S512x256 .f32) (harg5 : arg5.IsWhole) (hc0 : ¬cond0_0 i) (hc1 : cond0_1 i)
    (x0 : Vec F S1x2048 .i32) (x1 : Vec F S2048x256 .f32) (xs0 : Vec F S512x256 .f32) :
    out0_C_2 c i arg2 harg2 arg3 harg3 arg4 harg4 arg5 harg5 hc0 hc1 x0 x1 xs0 = k0_pay2 i x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz, View.readCov_unit_zero (S := S512x256) _ hz]
  simp only [View.readAt_eq_ld, harg2.read_unread, harg3.read_unread, harg5.read_unread, View.ld_unit_zero (S := S1x2048) hz, View.ld_unit_zero (S := S2048x256) hz, View.ld_unit_zero (S := S512x256) hz]

end Cert.KernelIdeal.KVal

end
-- ==== Proof.KPay.lean ====
/-
  The body's arithmetic read at one entry, over the extended reals. Entry `(p, d)` of the body's result is the
  accumulator's entry plus the sum over the tile's 2048 rows `k` of an indicator times the row's entry in column `d`;
  the indicator of `(p, k)` is one when the 32-bit word `512 i + p` (the graph's number) equals row `k`'s segment word, and
  zero otherwise. A change of float format is the identity, a signed integer converts to itself, and a product into a zero
  accumulator is the plain sum over the contracted axis.
-/
import proofs.«134707_j6468220748681_2_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)

open scoped BigOperators

namespace Cert.KernelIdeal.KVal

open Cert.KernelIdeal Cert.KernelIdeal.Gen Idealize.ShloMosaic.ValueIdx

/-- The matrix product's dimension numbers: rows by the contracted axis, the contracted axis by columns. -/
abbrev DD : DotDims S512x2048 S2048x256 S512x256 := dot_S512x2048_S2048x256_S512x256_1_0_0_1_n_n

theorem lhsDD_0 (j : S512x256.Idx) (k : DD.contr.Idx) : (DD.lhsIdx j k 0 : ℕ) = j 0 := by
  simp [DotDims.lhsIdx, DD, dot_S512x2048_S2048x256_S512x256_1_0_0_1_n_n]; rfl
theorem lhsDD_1 (j : S512x256.Idx) (k : DD.contr.Idx) : (DD.lhsIdx j k 1 : ℕ) = k ⟨0, by decide⟩ := by
  simp [DotDims.lhsIdx, DD, dot_S512x2048_S2048x256_S512x256_1_0_0_1_n_n]; rfl
theorem rhsDD_0 (j : S512x256.Idx) (k : DD.contr.Idx) : (DD.rhsIdx j k 0 : ℕ) = k ⟨0, by decide⟩ := by
  simp [DotDims.rhsIdx, DD, dot_S512x2048_S2048x256_S512x256_1_0_0_1_n_n]; rfl
theorem rhsDD_1 (j : S512x256.Idx) (k : DD.contr.Idx) : (DD.rhsIdx j k 1 : ℕ) = j 1 := by
  simp [DotDims.rhsIdx, DD, dot_S512x2048_S2048x256_S512x256_1_0_0_1_n_n]; rfl

/-- The indicator as a number: a one-bit comparison widened and converted is one when the words are equal, zero otherwise. -/
theorem indicator_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · subst h
    simp [IntOp.cmpi]
  · have hb : (a == b) = false := by simpa using h
    simp [IntOp.cmpi, hb, h]

/-- The graph's number as the body computes it: the row's position in the block plus 512 times the block's number. -/
theorem row_word (a p : Nat) :
    IntOp.addi (BitVec.ofNat 32 p) (Scalar.muli (BitVec.ofNat 32 a) 512#32) = BitVec.ofNat 32 (a * 512 + p) := by
  apply BitVec.eq_of_toNat_eq
  simp only [IntOp.addi, Scalar.muli, IntOp.muli, BitVec.toNat_add, BitVec.toNat_mul, BitVec.toNat_ofNat, Nat.reducePow, Nat.reduceMod]
  omega

/-- The zero block. -/
theorem pay1_apply (j : S512x256.Idx) : k0_pay1 (F := Ideal) j = 0 := by
  unfold k0_pay1
  simp only [shapeCast_self]
  exact Ideal.ofBits_zero_f32

/-- Entry `(p, d)` of the body's result. -/
theorem pay2_apply (i : grid0.Coords) (x0 : Vec Ideal S1x2048 .i32) (x1 : Vec Ideal S2048x256 .f32) (acc : Vec Ideal S512x256 .f32)
    (p : Fin 512) (d : Fin 256) :
    k0_pay2 (F := Ideal) i x0 x1 acc (ix2 p d)
      = acc (ix2 p d) + ∑ k : Fin 2048, (if BitVec.ofNat 32 ((i 0).val * 512 + p.val) = x0 (ix2 (0 : Fin 1) k) then (1 : EReal) else 0) * x1 (ix2 k d) := by
  unfold k0_pay2
  dsimp only
  simp only [shapeCast_self]
  rw [addf_apply]
  refine congrArg (acc (ix2 p d) + ·) ?_
  refine (Ideal.matmul_constant_zero_apply DD none _ _ (ix2 p d)).trans ?_
  rw [← Equiv.sum_comp (contrEquiv1 DD 2048 rfl rfl).symm]
  refine Finset.sum_congr rfl fun k _ => ?_
  have hl : DD.lhsIdx (ix2 p d) ((contrEquiv1 DD 2048 rfl rfl).symm k) = ix2 p k := by
    funext a; apply Fin.ext
    match a with
    | ⟨0, _⟩ => exact lhsDD_0 _ _
    | ⟨1, _⟩ => exact (lhsDD_1 _ _).trans (contrEquiv1_symm_val DD 2048 rfl rfl k)
  have hr : DD.rhsIdx (ix2 p d) ((contrEquiv1 DD 2048 rfl rfl).symm k) = ix2 k d := by
    funext a; apply Fin.ext
    match a with
    | ⟨0, _⟩ => exact (rhsDD_0 _ _).trans (contrEquiv1_symm_val DD 2048 rfl rfl k)
    | ⟨1, _⟩ => exact rhsDD_1 _ _
  rw [hl, hr, truncf_apply, truncf_apply, sitofp_apply, extui_apply]
  refine congrArg (· * x1 (ix2 k d)) ?_
  show FloatOps.sitofp (F := Ideal) .f32 ((IntOp.cmpi .eq (IntOp.addi (iota .tc S512x2048 32 [0] iota_S512x2048_d0_w32 (ix2 p k)) (Scalar.muli (BitVec.ofNat 32 (i 0).val) 512#32)) (broadcastTo S512x2048 x0 broadcasts_S1x2048_S512x2048 (ix2 p k))).setWidth 32) = _
  rw [iota_single_apply, broadcastTo_apply x0 broadcasts_S1x2048_S512x2048 (ix2 p k) (ix2 (0 : Fin 1) k) (fun a => by
    match a with
    | ⟨0, _⟩ => rfl
    | ⟨1, _⟩ => rfl), indicator_word]
  show (if IntOp.addi (BitVec.ofNat 32 p.val) (Scalar.muli (BitVec.ofNat 32 (i 0).val) 512#32) = _ then (1 : EReal) else 0) = _
  rw [row_word]

end Cert.KernelIdeal.KVal

end
-- ==== Proof.KBlocks.lean ====
/-
  Which entries of the padded arrays a grid point's blocks hold. The grid is 4 blocks of 512 graphs by 130 tiles of 2048
  rows, point `t` being graph block `t / 130` and tile `t % 130`. At point `t` the segment block is entries
  `2048 (t % 130) + k` of the padded segment row, the node block is rows `2048 (t % 130) + k` of the padded node array, and
  the output block is rows `512 (t / 130) + p` of the result.
-/
import proofs.«134707_j6468220748681_2_alg».proof.Proof.Gen.KernelIdeal.Frame
import Idealize.ShloMosaic.Lib.Pipeline.Value
import Idealize.ShloMosaic.Lib.ValueIdx
import Idealize.ShloMosaic.Lib.Tactic
import proofs.«134707_j6468220748681_2_alg».proof.Proof.SegSpec

noncomputable section

open Idealize.ShloMosaic Idealize.ShloMosaic.TcCoe Idealize.SL.Sem
open Idealize.ShloMosaic.Pipeline (Dat)

namespace Cert.KernelIdeal.KVal

open Cert.KernelIdeal Cert.KernelIdeal.Gen Idealize.ShloMosaic.ValueIdx Cert.SegSpec

variable {F : FTy → Type} [FloatOps F]
variable (m : (ℓ : Loc nD τ sig) → Buf (Elt F) ℓ)

/-- The printed index maps and grid coordinates in closed form, decided once over the 520 points. -/
theorem idx_facts : ∀ t : Fin cfg0.N, win0_0.index t (0 : Fin 2) = 0 ∧ win0_0.index t (1 : Fin 2) = t.val % 130
    ∧ win0_1.index t (0 : Fin 2) = t.val % 130 ∧ win0_1.index t (1 : Fin 2) = 0
    ∧ win0_2.index t (0 : Fin 2) = t.val / 130 ∧ win0_2.index t (1 : Fin 2) = 0
    ∧ (grid0.coords t 0).val = t.val / 130 ∧ (grid0.coords t 1).val = t.val % 130 :=
  (by decide +kernel : ∀ t : Fin grid0.N, _)

/-- The tile of a point. -/
def tileOf (n : Nat) : Fin 130 := ⟨n % 130, Nat.mod_lt _ (by decide)⟩

/-- The segment block at point `t`: entry `k` is entry `2048 (t % 130) + k` of the padded segment row. -/
theorem seg_blk (c : Dev nD) (t : Fin cfg0.N) (k : Fin 2048) :
    (iblk m c 0 t : Vec F S1x2048 .i32) (ix2 (0 : Fin 1) k)
      = (V m c main_v20 : S1x266240.Idx → BitVec 32) (ix2 (0 : Fin 1) (tileRow (tileOf t.val) k)) := by
  unfold iblk
  rw [View.read_apply]
  show V m c main_v20 (((cfg0.win 0).blk t).view.emb (ix2 (0 : Fin 1) k)) = V m c main_v20 (ix2 (0 : Fin 1) (tileRow (tileOf t.val) k))
  obtain ⟨e0, e1, -, -, -, -, -, -⟩ := idx_facts t
  refine congrArg (V m c main_v20) (funext fun a => Fin.ext ?_)
  match a with
  | ⟨0, _⟩ => show win0_0.index t (0 : Fin 2) * 1 + 1 * 0 = 0; omega
  | ⟨1, _⟩ => show win0_0.index t (1 : Fin 2) * 2048 + 1 * k.val = (t.val % 130) * 2048 + k.val; omega

/-- The node block at point `t`: row `k` is row `2048 (t % 130) + k` of the padded node array. -/
theorem emb_blk (c : Dev nD) (t : Fin cfg0.N) (k : Fin 2048) (d : Fin 256) :
    (iblk m c 1 t : Vec F S2048x256 .f32) (ix2 k d)
      = (V m c main_v18 : S266240x256.Idx → F .f32) (ix2 (tileRow (tileOf t.val) k) d) := by
  unfold iblk
  rw [View.read_apply]
  show V m c main_v18 (((cfg0.win 1).blk t).view.emb (ix2 k d)) = V m c main_v18 (ix2 (tileRow (tileOf t.val) k) d)
  obtain ⟨-, -, e2, e3, -, -, -, -⟩ := idx_facts t
  refine congrArg (V m c main_v18) (funext fun a => Fin.ext ?_)
  match a with
  | ⟨0, _⟩ => show win0_1.index t (0 : Fin 2) * 2048 + 1 * k.val = (t.val % 130) * 2048 + k.val; omega
  | ⟨1, _⟩ => show win0_1.index t (1 : Fin 2) * 256 + 1 * d.val = d.val; omega

end Cert.KernelIdeal.KVal

end
-- ==== Proof.KAcc.lean ====
/-
  The accumulator over the 130 tiles of one block of graphs. After point `t` — graph block `t / 130`, tile `t % 130` — the
  accumulator holds, at entry `(p, d)`, the sum over the tiles `0 … t % 130` of that tile's term: the sum over the tile's
  2048 rows of the indicator of "this row's segment word is graph `512 (t / 130) + p`" times the row's entry in column `d`.
  It is reset at the first tile of each block and only added to afterwards, so this is an induction on the tile, never an
  enumeration of the grid. At a last tile the output block is a copy of the accumulator.
-/
import proofs.«134707_j6468220748681_2_alg».proof.Proof.Gen.KernelIdeal.Frame
import Idealize.ShloMosaic.Lib.Pipeline.Value
import Idealize.ShloMosaic.Lib.ValueIdx
import Idealize.ShloMosaic.Lib.Tactic
import proofs.«134707_j6468220748681_2_alg».proof.Proof.SegSpec
import proofs.«134707_j6468220748681_2_alg».proof.Proof.KPieces
import proofs.«134707_j6468220748681_2_alg».proof.Proof.KPay
import proofs.«134707_j6468220748681_2_alg».proof.Proof.KBlocks

noncomputable section

open Idealize.ShloMosaic Idealize.ShloMosaic.TcCoe Idealize.SL.Sem
open Idealize.ShloMosaic.Pipeline (Dat)

open scoped BigOperators

namespace Cert.KernelIdeal.KVal

open Cert.KernelIdeal Cert.KernelIdeal.Gen Idealize.ShloMosaic.ValueIdx Cert.SegSpec

variable (m : (ℓ : Loc nD τ sig) → Buf (Elt Ideal) ℓ)

/-- Row `r`'s segment word in the padded row of segment words. -/
def segp (c : Dev nD) (r : Fin 266240) : BitVec 32 := (V m c main_v20 : S1x266240.Idx → BitVec 32) (ix2 (0 : Fin 1) r)
/-- Entry `(r, d)` of the padded node array. -/
def embp (c : Dev nD) (r : Fin 266240) (d : Fin 256) : EReal := (V m c main_v18 : S266240x256.Idx → EReal) (ix2 r d)

/-- The term point `n`'s tile adds to entry `i` of the accumulator. -/
def tileTerm (c : Dev nD) (n : Nat) (i : S512x256.Idx) : EReal :=
  ∑ k : Fin 2048, (if BitVec.ofNat 32 (n / 130 * 512 + (i 0).val) = segp m c (tileRow (tileOf n) k) then (1 : EReal) else 0)
    * embp m c (tileRow (tileOf n) k) (i 1)

/-- What the body leaves in the accumulator at point `n` when it finds `acc` there. -/
def stepAt (c : Dev nD) (n : Nat) (h : n < cfg0.N) (acc : Vec Ideal S512x256 .f32) : Vec Ideal S512x256 .f32 :=
  k0_pay2 (grid0.coords ⟨n, h⟩) (iblk m c 0 ⟨n, h⟩) (iblk m c 1 ⟨n, h⟩) acc
/-- and at a first tile, where it first sets it to zero. -/
def resetAt (c : Dev nD) (n : Nat) (h : n < cfg0.N) : Vec Ideal S512x256 .f32 :=
  stepAt m c n h (k0_pay1 (F := Ideal))

/-- The body adds the point's term to what it found. -/
theorem stepAt_apply (c : Dev nD) (n : Nat) (h : n < cfg0.N) (acc : Vec Ideal S512x256 .f32) (i : S512x256.Idx) :
    stepAt m c n h acc i = acc i + tileTerm m c n i := by
  obtain ⟨p, d, rfl⟩ : ∃ (p : Fin 512) (d : Fin 256), i = ix2 p d := ⟨i 0, i 1, eq_ix2 i⟩
  obtain ⟨-, -, -, -, -, -, e6, -⟩ := idx_facts ⟨n, h⟩
  unfold stepAt tileTerm segp embp
  rw [pay2_apply]
  refine congrArg (acc (ix2 p d) + ·) (Finset.sum_congr rfl fun k _ => ?_)
  rw [seg_blk m c ⟨n, h⟩ k, emb_blk m c ⟨n, h⟩ k d, e6]

theorem resetAt_apply (c : Dev nD) (n : Nat) (h : n < cfg0.N) (i : S512x256.Idx) :
    resetAt m c n h i = 0 + tileTerm m c n i := by
  unfold resetAt
  rw [stepAt_apply, pay1_apply]

/-- The accumulator after a point depends only on the point's number. -/
theorem snd_congr (c : Dev nD) : ∀ (u v : Nat) (hu : u < cfg0.N) (hv : v < cfg0.N), u = v →
    (outsAt0 m c u hu).2 = (outsAt0 m c v hv).2 := fun u v hu hv e => by subst e; rfl

/-- At a first tile the accumulator is the reset value; -/
theorem scratch_reset (c : Dev nD) (n : Nat) (h : n < cfg0.N) (h0 : n % 130 = 0) :
    (outsAt0 m c n h).2 = resetAt m c n h := by
  have h1 : ¬(⟨n, h⟩ : Fin cfg0.N).val % 130 = 129 := by dsimp only; omega
  rw [outsAt0_A m c ⟨n, h⟩ h0 h1, acc_A]
  rfl

/-- at every other tile it is the body's step from what the tile before left. -/
theorem scratch_step (c : Dev nD) (n : Nat) (h : n + 1 < cfg0.N) (hne : ¬(n + 1) % 130 = 0) :
    (outsAt0 m c (n + 1) h).2 = stepAt m c (n + 1) h (outsAt0 m c n (Nat.lt_of_succ_lt h)).2 := by
  have hs := snd_congr m c ((⟨n + 1, h⟩ : Fin cfg0.N).val - 1) n (Nat.lt_of_le_of_lt (Nat.sub_le _ _) (⟨n + 1, h⟩ : Fin cfg0.N).isLt) (Nat.lt_of_succ_lt h) rfl
  by_cases h1 : (n + 1) % 130 = 129
  · rw [outsAt0_C m c ⟨n + 1, h⟩ hne h1, acc_C, hs]
    rfl
  · rw [outsAt0_B m c ⟨n + 1, h⟩ hne h1, acc_B, hs]
    rfl

/-- So after point `t` the accumulator is zero plus the terms of the tiles `0 … t % 130` of `t`'s block of graphs. -/
theorem scratch_apply (c : Dev nD) (t : Nat) (ht : t < cfg0.N) (i : S512x256.Idx) :
    (outsAt0 m c t ht).2 i = 0 + ∑ s ∈ Finset.range (t % 130 + 1), tileTerm m c (130 * (t / 130) + s) i := by
  have h' : 130 * (t / 130) + t % 130 < cfg0.N := by rw [Nat.div_add_mod]; exact ht
  rw [Pipeline.eq_accAt_of_mod (fun n h => (outsAt0 m c n h).2) 130 (resetAt m c) (stepAt m c)
    (scratch_reset m c) (scratch_step m c) (by decide) t ht h']
  exact Pipeline.accAt_add_apply (resetAt m c) (stepAt m c) (fun _ => 0) (tileTerm m c) (130 * (t / 130)) 129
    (fun h i => resetAt_apply m c _ h i) (fun n h acc i _ _ => stepAt_apply m c n h acc i) (t % 130)
    (by have := Nat.mod_lt t (by decide : 0 < 130); omega) h' i

/-- At a last tile the output block is the accumulator. -/
theorem out_last (c : Dev nD) (t : Fin cfg0.N) (h1 : t.val % 130 = 129) :
    (outsAt0 m c t.val t.isLt).1 = (outsAt0 m c t.val t.isLt).2 := by
  have h0 : ¬t.val % 130 = 0 := by omega
  rw [outsAt0_C m c t h0 h1, out_C, acc_C]

end Cert.KernelIdeal.KVal

end
-- ==== Proof.KHost.lean ====
/-
  The two arrays the tiled sums run over, as the host lines before them leave them. The segment words — computed from the
  graph lengths by a chain of integer operations that is never opened here — are padded from 265182 to 266240 entries with
  the all-ones word and viewed as one row; the node array is padded to 266240 rows with zero. Read at an entry, each is the
  original below 265182 and the padding value from there on.
-/
import proofs.«134707_j6468220748681_2_alg».proof.Proof.Gen.KernelIdeal.Frame
import Idealize.ShloMosaic.Lib.Pipeline.Value
import Idealize.ShloMosaic.Lib.ValueIdx
import Idealize.ShloMosaic.Lib.Tactic
import Idealize.ShloMosaic.Lib.KernelVsHost
import Idealize.ShloMosaic.Lib.StableHlo.Run

noncomputable section

open Idealize.ShloMosaic Idealize.ShloMosaic.TcCoe Idealize.SL.Sem
open Idealize.ShloMosaic.Pipeline (Dat)

namespace Cert.KernelIdeal.KVal

open Cert.KernelIdeal Cert.KernelIdeal.Gen Idealize.ShloMosaic.ValueIdx Idealize.ShloMosaic.StableHlo

variable {F : FTy → Type} [FloatOps F]
variable (m : (ℓ : Loc nD τ sig) → Buf (Elt F) ℓ)

/-- The buffers' contents once the segment words have been computed: the host lines up to there, over the launch memory. -/
def Wseg (c : Dev nD) : Valuation τ sig (Elt F) :=
  StableHlo.after (List.flatten [hostOps0, hostOps0_1, hostOps0_2, hostOps0_3, hostOps0_4, hostOps0_5, hostOps0_6, hostOps0_7]) (fun b => m (c, b))

/-- The remaining host lines before the tiled sums — two constants, the two paddings, the view as one row — run from there. -/
theorem V0_split (c : Dev nD) :
    V0 m c = after hostOps0_12 (after hostOps0_11 (after hostOps0_10 (after hostOps0_9 (after hostOps0_8 (Wseg m c))))) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) = _
  unfold Wseg
  simp only [List.flatten_cons, List.flatten_nil, List.append_nil, StableHlo.after_append]

/-- The segment words: one 32-bit word per row of the node array. -/
def segK (c : Dev nD) : S265182.Idx → BitVec 32 := Wseg m c (Proc.devRef .tc main_v17)

attribute [local irreducible] pad shapeCast in
/-- The segment words as the tiled sums find them: padded with the all-ones word, viewed as one row. -/
theorem V20_eq (c : Dev nD) :
    (V m c main_v20 : S1x266240.Idx → BitVec 32)
      = shapeCast S1x266240 (pad S266240 ![0] ![1058] ![0] (segK m c) (constantI S_ 32 4294967295#32) pads_S265182_S266240_010580 h_S_) shapeCasts_S266240_S1x266240 := by
  show V0 m c (Proc.devRef .tc main_v20) = _
  rw [V0_split]
  simp only [hostOps0_8, hostOps0_9, hostOps0_10, hostOps0_11, hostOps0_12, after_cons, after_nil]
  rfl

end Cert.KernelIdeal.KVal

end
-- ==== Proof.KHostE.lean ====
/-
  The node array as the tiled sums find it: the argument array padded from 265182 to 266240 rows with the float the integer
  zero converts to. No host line before the tiled sums writes the argument array, so it is read as launched.
-/
import proofs.«134707_j6468220748681_2_alg».proof.Proof.Gen.KernelIdeal.Frame
import Idealize.ShloMosaic.Lib.Pipeline.Value
import Idealize.ShloMosaic.Lib.ValueIdx
import Idealize.ShloMosaic.Lib.Tactic
import Idealize.ShloMosaic.Lib.KernelVsHost
import Idealize.ShloMosaic.Lib.StableHlo.Run

noncomputable section

open Idealize.ShloMosaic Idealize.ShloMosaic.TcCoe Idealize.SL.Sem
open Idealize.ShloMosaic.Pipeline (Dat)

namespace Cert.KernelIdeal.KVal

open Cert.KernelIdeal Cert.KernelIdeal.Gen Idealize.ShloMosaic.ValueIdx Idealize.ShloMosaic.StableHlo

variable {F : FTy → Type} [FloatOps F]
variable (m : (ℓ : Loc nD τ sig) → Buf (Elt F) ℓ)

/-- The buffers' contents after the host lines that come before the two paddings' constants. -/
def Wpre (c : Dev nD) : Valuation τ sig (Elt F) :=
  StableHlo.after (List.flatten [hostOps0, hostOps0_1, hostOps0_2, hostOps0_3, hostOps0_4, hostOps0_5, hostOps0_6, hostOps0_7]) (fun b => m (c, b))

theorem V0_split_pre (c : Dev nD) :
    V0 m c = after hostOps0_12 (after hostOps0_11 (after hostOps0_10 (after hostOps0_9 (after hostOps0_8 (Wpre m c))))) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) = _
  unfold Wpre
  simp only [List.flatten_cons, List.flatten_nil, List.append_nil, StableHlo.after_append]

/-- None of those lines writes the node array. -/
theorem Wpre_arg0 (c : Dev nD) : Wpre m c (Proc.devRef .tc main_arg0) = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

attribute [local irreducible] pad shapeCast in
/-- The node array as the tiled sums find it. -/
theorem V18_eq (c : Dev nD) :
    (V m c main_v18 : S266240x256.Idx → F .f32)
      = pad S266240x256 ![0, 0] ![1058, 0] ![0, 0] (m ((c : Thread nD τ).loc main_arg0)) (sitofp (F := F) .f32 (constantI S_ 32 0#32)) pads_S265182x256_S266240x256_010580_000 h_S_ := by
  show V0 m c (Proc.devRef .tc main_v18) = _
  rw [V0_split_pre, ← Wpre_arg0 m c]
  simp only [hostOps0_8, hostOps0_9, hostOps0_10, hostOps0_11, hostOps0_12, after_cons, after_nil]
  rfl

end Cert.KernelIdeal.KVal

end
-- ==== Proof.KRun.lean ====
/-
  The program's run, read at its result. After the tiled sums the host divides the array of sums, entry by entry, by one
  number: the largest graph length, converted to a float and broadcast. So the result buffer ends at that quotient of the
  array the tiled sums leave, and the two argument arrays end as they began.
-/
import proofs.«134707_j6468220748681_2_alg».proof.Proof.Gen.KernelIdeal.Frame
import Idealize.ShloMosaic.Lib.Pipeline.Value
import Idealize.ShloMosaic.Lib.ValueIdx
import Idealize.ShloMosaic.Lib.Tactic
import Idealize.ShloMosaic.Lib.StableHlo.Run

noncomputable section

open Idealize.ShloMosaic Idealize.ShloMosaic.TcCoe Idealize.SL.Sem
open Idealize.ShloMosaic.Pipeline (Dat)

namespace Cert.KernelIdeal.KVal

open Cert.KernelIdeal Cert.KernelIdeal.Gen Idealize.ShloMosaic.StableHlo

variable (m : (ℓ : Loc nD τ sig) → Buf (Elt Ideal) ℓ) (ρ : Dev nD → PrngReg)

/-- The divisor: the largest graph length as a float, at every entry. -/
def denom (gl : S2048.Idx → BitVec 32) : S2048x256.Idx → EReal :=
  broadcastInDim S2048x256 ![] bcast_S_S2048x256 (sitofp (F := Ideal) .f32 (Host.reduce IntOp.maxsi gl (constantI S_ 32 2147483648#32) reducesTo_S2048_S_d0 h_S_))

/-- The result buffer after the host lines that follow the tiled sums: the sums' array divided by the divisor. -/
theorem tail_eq (c : Dev nD) :
    Pipeline.afterTail₀ cfgs (dats m) 0 (V0 m) [hostOps1] c main_v25
      = Host.divf (F := Ideal) (φ := .f32) ((dats m 0 c).arrAt 2 cfg0.N : S2048x256.Idx → EReal) (denom (m ((c : Thread nD τ).loc main_arg1))) := by
  unfold Pipeline.afterTail₀
  have e1 : Pipeline.withArrays (cfgs 0).spec c (V0 m c) (fun w => (dats m 0 c).arrAt w (cfgs 0).N) (Proc.devRef .tc main_v21) = (dats m 0 c).arrAt 2 cfg0.N :=
    Pipeline.withArrays_arr spec0 launch0.win.arr_inj c _ _ 2
  have e2 : Pipeline.withArrays (cfgs 0).spec c (V0 m c) (fun w => (dats m 0 c).arrAt w (cfgs 0).N) (Proc.devRef .tc main_arg1) = m ((c : Thread nD τ).loc main_arg1) :=
    (Pipeline.withArrays_of_ne _ c (V0 m c) _ main_arg1 (by exact (by decide : ∀ w, Pipeline.arrRef spec0 w ≠ main_arg1))).trans (V_main_arg1 m c)
  simp only [List.flatten_cons, List.flatten_nil, List.append_nil, hostOps1]
  after_results
  rw [e1, e2]
  rfl

/-- The run: the result at the quotient, the arguments unchanged. -/
theorem run_out : θ_run defs (onTc (τ := τ) (main (F := Ideal))) ⟨m, fun _ => 0, ρ⟩ fun r => ∀ c : Dev nD,
      r.2.mem ((c.tc : Thread nD τ).loc main_v25) = Host.divf (F := Ideal) (φ := .f32) ((dats m 0 c).arrAt 2 cfg0.N : S2048x256.Idx → EReal) (denom (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v25 (Pipeline.mem_restRefs_of main_v25 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KVal

end
-- ==== Proof.KFinal.lean ====
/-
  The array the tiled sums leave is the array of per-graph sums. At the last tile of graph block `q` the output block's entry
  `(p, d)` is the sum over all 130 tiles and their 2048 rows of the indicator of "row's segment word is graph `512 q + p`"
  times the row's entry in column `d`, over the PADDED arrays; the padding rows carry the all-ones word, which is no graph's
  number, so they add nothing, and the sum is the per-graph sum over the 265182 real rows. The four blocks written at the four
  last tiles tile the 2048 x 256 result.
-/
import proofs.«134707_j6468220748681_2_alg».proof.Proof.Gen.KernelIdeal.Frame
import Idealize.ShloMosaic.Lib.Pipeline.Value
import Idealize.ShloMosaic.Lib.ValueIdx
import Idealize.ShloMosaic.Lib.Tactic
import proofs.«134707_j6468220748681_2_alg».proof.Proof.SegSpec
import proofs.«134707_j6468220748681_2_alg».proof.Proof.SegTiles
import proofs.«134707_j6468220748681_2_alg».proof.Proof.SegPad
import proofs.«134707_j6468220748681_2_alg».proof.Proof.KAcc
import proofs.«134707_j6468220748681_2_alg».proof.Proof.KHost
import proofs.«134707_j6468220748681_2_alg».proof.Proof.KHostE
import proofs.«134707_j6468220748681_2_alg».proof.Proof.KRun

noncomputable section

open Idealize.ShloMosaic Idealize.ShloMosaic.TcCoe Idealize.SL.Sem
open Idealize.ShloMosaic.Pipeline (Dat)

open scoped BigOperators

namespace Cert.KernelIdeal.KVal

open Cert.KernelIdeal Cert.KernelIdeal.Gen Idealize.ShloMosaic.ValueIdx Cert.SegSpec

variable (m : (ℓ : Loc nD τ sig) → Buf (Elt Ideal) ℓ) (ρ : Dev nD → PrngReg)

/-- The node array as launched. -/
abbrev emb0 (c : Dev nD) : SNxD.Idx → EReal := m ((c : Thread nD τ).loc main_arg0)

/-- A padded segment word is the row's word below 265182 and the all-ones word from there on. -/
theorem segp_eq (c : Dev nD) (r : Fin 266240) :
    segp m c r = if h : r.val < 265182 then segK m c (ix1 (⟨r.val, h⟩ : Fin 265182)) else 4294967295#32 := by
  unfold segp
  rw [V20_eq]
  exact padRow_apply (segK m c) (constantI S_ 32 4294967295#32) _ _ _ r

/-- A padded node entry is the node array's below row 265182 and zero from there on. -/
theorem embp_eq (c : Dev nD) (r : Fin 266240) (d : Fin 256) :
    embp m c r d = if h : r.val < 265182 then emb0 m c (ix2 (⟨r.val, h⟩ : Fin 265182) d) else 0 := by
  unfold embp
  rw [V18_eq]
  refine (padRows_apply (emb0 m c) (sitofp (F := Ideal) .f32 (constantI S_ 32 0#32)) _ _ r d).trans ?_
  refine dite_congr rfl (fun _ => rfl) (fun _ => ?_)
  show (((0#32 : BitVec 32).toInt : ℝ) : EReal) = 0
  simp

/-- The accumulator after a last tile, entry by entry: the per-graph sums of the block's graphs. -/
theorem out_entry (c : Dev nD) (t : Fin cfg0.N) (h1 : t.val % 130 = 129) (p : Fin 512) (d : Fin 256)
    (hg : t.val / 130 * 512 + p.val < 2048) :
    (outsAt0 m c t.val t.isLt).2 (ix2 p d) = segSumAt (segK m c) (emb0 m c) ⟨t.val / 130 * 512 + p.val, hg⟩ d := by
  rw [scratch_apply m c t.val t.isLt (ix2 p d), h1, zero_add, Finset.sum_range]
  have hq : ∀ s : Fin 130, (130 * (t.val / 130) + s.val) / 130 = t.val / 130 := fun s => by have := s.isLt; omega
  have hs : ∀ s : Fin 130, tileOf (130 * (t.val / 130) + s.val) = s := fun s => Fin.ext (by
    show (130 * (t.val / 130) + s.val) % 130 = s.val
    have := s.isLt; omega)
  unfold tileTerm
  simp only [hq, hs]
  exact tiles_eq (segK m c) (emb0 m c) (segp m c) (embp m c) (segp_eq m c) (embp_eq m c) ⟨t.val / 130 * 512 + p.val, hg⟩ d

/-- An index of the result is in point `t`'s output block iff each coordinate is in the block's range. -/
theorem mem_blk (t : Fin cfg0.N) (i : S2048x256.Idx) :
    i ∈ ((cfg0.win 2).blk t).view.set ↔ ∀ a : Fin 2, win0_2.index t a * S512x256.size a ≤ (i a).val ∧ (i a).val < win0_2.index t a * S512x256.size a + S512x256.size a := by
  show i ∈ ((View.whole main_v21).slice (win0_2.rect t)).set ↔ _
  rw [View.set_slice_whole, Rect.mem_set_unit]
  exact Iff.rfl

/-- What a last tile writes back is its block of the per-graph sums. -/
theorem flushed_eq (c : Dev nD) (t : Fin cfg0.N) (hf : (cfg0.win 2).flush t = true) :
    (dats m 0 c).flushed 2 t = ((cfg0.win 2).blk t).view.read (Elt Ideal) (segSum (segK m c) (emb0 m c)) := by
  have h1 : t.val % 130 = 129 := (flush0_2 t).mp hf
  have hN : t.val < 520 := lt_of_lt_of_eq t.isLt (show cfg0.N = 520 from N_0)
  obtain ⟨-, -, -, -, e4, e5, -, -⟩ := idx_facts t
  show (cfg0.win 2).cut (grid0.coords t) ((dats m 0 c).after 2 t) = _
  rw [after0_2, out_last m c t h1]
  funext y
  have hy0 : (y 0).val < 512 := (y 0).isLt
  have hy1 : (y 1).val < 256 := (y 1).isLt
  have hg : t.val / 130 * 512 + (y 0).val < 2048 := by omega
  rw [View.read_apply, cast_eq]
  have hx : (cfg0.win 2).xinj (grid0.coords t) y = ix2 (⟨(y 0).val, hy0⟩ : Fin 512) (⟨(y 1).val, hy1⟩ : Fin 256) := by
    funext a
    match a with
    | ⟨0, _⟩ => rfl
    | ⟨1, _⟩ => rfl
  have hemb : ((cfg0.win 2).blk t).view.emb y = ix2 (⟨t.val / 130 * 512 + (y 0).val, hg⟩ : Fin 2048) (⟨(y 1).val, hy1⟩ : Fin 256) := by
    funext a; apply Fin.ext
    match a with
    | ⟨0, _⟩ => show win0_2.index t (0 : Fin 2) * 512 + 1 * (y 0).val = t.val / 130 * 512 + (y 0).val; omega
    | ⟨1, _⟩ => show win0_2.index t (1 : Fin 2) * 256 + 1 * (y 1).val = (y 1).val; omega
  have hc : (cfg0.win 2).cut (grid0.coords t) (outsAt0 m c t.val t.isLt).2 y
      = (outsAt0 m c t.val t.isLt).2 ((cfg0.win 2).xinj (grid0.coords t) y) := rfl
  rw [hc, hx, hemb, segSum_ix2]
  exact out_entry m c t h1 ⟨(y 0).val, hy0⟩ ⟨(y 1).val, hy1⟩ hg

/-- The four last tiles' blocks cover the result. -/
theorem cover (i : S2048x256.Idx) : ∃ t : Fin cfg0.N, (cfg0.win 2).flush t = true ∧ i ∈ ((cfg0.win 2).blk t).view.set := by
  have hi0 : (i 0).val < 2048 := (i 0).isLt
  have hi1 : (i 1).val < 256 := (i 1).isLt
  have hN : cfg0.N = 520 := N_0
  have ht : 130 * ((i 0).val / 512) + 129 < cfg0.N := by rw [hN]; omega
  refine ⟨⟨130 * ((i 0).val / 512) + 129, ht⟩, (flush0_2 _).mpr (by show (130 * ((i 0).val / 512) + 129) % 130 = 129; omega), ?_⟩
  obtain ⟨-, -, -, -, e4, e5, -, -⟩ := idx_facts ⟨130 * ((i 0).val / 512) + 129, ht⟩
  have e4' : win0_2.index ⟨130 * ((i 0).val / 512) + 129, ht⟩ (0 : Fin 2) = (130 * ((i 0).val / 512) + 129) / 130 := e4
  rw [mem_blk]
  intro a
  match a with
  | ⟨0, _⟩ =>
    show win0_2.index ⟨130 * ((i 0).val / 512) + 129, ht⟩ (0 : Fin 2) * 512 ≤ (i 0).val ∧ (i 0).val < win0_2.index ⟨130 * ((i 0).val / 512) + 129, ht⟩ (0 : Fin 2) * 512 + 512
    rw [e4']; omega
  | ⟨1, _⟩ =>
    show win0_2.index ⟨130 * ((i 0).val / 512) + 129, ht⟩ (1 : Fin 2) * 256 ≤ (i 1).val ∧ (i 1).val < win0_2.index ⟨130 * ((i 0).val / 512) + 129, ht⟩ (1 : Fin 2) * 256 + 256
    rw [e5]; omega

/-- So the array the tiled sums leave is the array of per-graph sums. -/
theorem final (c : Dev nD) : (dats m 0 c).arrAt 2 cfg0.N = segSum (segK m c) (emb0 m c) :=
  (dats m 0 c).arrAt_eq_of_cover 2 (segSum (segK m c) (emb0 m c)) (flushed_eq m c) cover

/-- The run: the result is the per-graph sums divided by the largest graph length; the arguments end as they began. -/
theorem run : θ_run defs (onTc (τ := τ) (main (F := Ideal))) ⟨m, fun _ => 0, ρ⟩ fun r => ∀ c : Dev nD,
      r.2.mem ((c.tc : Thread nD τ).loc main_v25) = Host.divf (F := Ideal) (φ := .f32) (segSum (segK m c) (emb0 m c)) (denom (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by rw [final m c]), (h c).2⟩) (run_out m ρ)

end Cert.KernelIdeal.KVal

end
-- ==== Proof.RefRun.lean ====
/-
  The reference program's run. The reference computes the per-graph sums of a node array in three steps: from the
  graphs' lengths it builds one segment word per row (the row's graph, by two running sums and a table look-up, all
  integer operations); it adds every row into an array of zeros at the row its segment word names (one scatter-add);
  and it divides the result by the largest length, converted to a float and broadcast. This module states that run as
  a straight line of host operations — the module-local functions written out at their call sites over each call's
  buffers — and reads the result buffer back one operation at a time: the quotient, the scatter-add, the zeros, the
  index column and the divisor, each as a term over the two argument arrays; the segment words stay the fold's value
  at their buffer.
-/
import proofs.«134707_j6468220748681_2_alg».proof.Proof.Gen.ReferenceIdeal
import proofs.«134707_j6468220748681_2_alg».proof.Proof.SegSpec
import Idealize.ShloMosaic.Lib.StableHlo.Run
import Idealize.ShloMosaic.Lib.ValueIdx
import Idealize.ShloMosaic.PureOps.Ideal.Laws

noncomputable section

namespace Cert.ReferenceIdeal.RefRun

open Idealize.ShloMosaic Idealize.ShloMosaic.TcCoe Idealize.SL.Sem Idealize.ShloMosaic.StableHlo
open Cert.ReferenceIdeal Cert.ReferenceIdeal.Gen

variable {F : FTy → Type} [FloatOps F]

/-- @main's sixty-one operations in order, the calls written out: the row rotation's two slices and their
    concatenation, each running sum's zero, its broadcast and the windowed reduction, the table look-up's twenty-two
    (the index wrapped where negative — the select is the inner function's one operation —, the bounds test, the
    gather, the select against the fill word), around @main's own thirty. -/
abbrev ops : List (HloOp τ sig (Elt F)) :=
  [ StableHlo.nullary main_v0 (iotaInDim S2048 32 0),
    StableHlo.TRef.unary (.of main_arg1 : TRef sig ⟨S2048, .i32⟩) main_call0.v0 (extractStridedSlice S1 ![2047] · slices_S2048_S1_2047),
    StableHlo.TRef.unary (.of main_arg1 : TRef sig ⟨S2048, .i32⟩) main_call0.v1 (extractStridedSlice S2047 ![0] · slices_S2048_S2047_0),
    StableHlo.TRef.binary main_call0.v0 main_call0.v1 main_call0.v2 (fun a b => concatenate S2048 0 [⟨S1, a⟩, ⟨S2047, b⟩] concatenates_S1_S2047_S2048_d0),
    StableHlo.nullary main_c (constantI S_ 32 0#32),
    StableHlo.unary main_c main_v2 (broadcastInDim S1 ![] bcast_S_S1 : (⟨S_, .i32⟩ : BufTy).Contents (Elt F) → (⟨S1, .i32⟩ : BufTy).Contents (Elt F)),
    StableHlo.nullary main_c_0 (constantI S_ 32 0#32),
    StableHlo.ternary main_v1 main_v2 main_c_0 main_v3 ((fun x i u => Host.scatter scatter_S2048_S1_S__n_0_0_0 (fun _ b => b) x i u) : (⟨S2048, .i32⟩ : BufTy).Contents (Elt F) → (⟨S1, .i32⟩ : BufTy).Contents (Elt F) → (⟨S_, .i32⟩ : BufTy).Contents (Elt F) → (⟨S2048, .i32⟩ : BufTy).Contents (Elt F)),
    StableHlo.TRef.nullary main_call1.call0.c (constantI S_ 32 0#32),
    StableHlo.TRef.unary main_call1.call0.c main_call1.call0.v0 (broadcastInDim S_ ![] bcast_S_S_),
    StableHlo.TRef.binary (.of main_v3 : TRef sig ⟨S2048, .i32⟩) main_call1.call0.v0 main_call1.call0.v1 (fun x v => Host.reduceWindow IntOp.addi ![2048] ![1] ![2047] ![0] x v reduceWindows_S2048_S2048_w2048s1p2047_0 h_S_),
    StableHlo.nullary main_c_1 (constantI S_ 32 0#32),
    StableHlo.unary main_c_1 main_v5 (broadcastInDim S265182 ![] bcast_S_S265182 : (⟨S_, .i32⟩ : BufTy).Contents (Elt F) → (⟨S265182, .i32⟩ : BufTy).Contents (Elt F)),
    StableHlo.nullary main_c_2 (constantI S_ 32 0#32),
    StableHlo.unary main_c_2 main_v6 (broadcastInDim S2048 ![] bcast_S_S2048 : (⟨S_, .i32⟩ : BufTy).Contents (Elt F) → (⟨S2048, .i32⟩ : BufTy).Contents (Elt F)),
    StableHlo.binary main_v4 main_v6 main_v7 (cmpi .slt : (⟨S2048, .i32⟩ : BufTy).Contents (Elt F) → (⟨S2048, .i32⟩ : BufTy).Contents (Elt F) → (⟨S2048, .i1⟩ : BufTy).Contents (Elt F)),
    StableHlo.nullary main_c_3 (constantI S_ 32 265182#32),
    StableHlo.unary main_c_3 main_v8 (broadcastInDim S2048 ![] bcast_S_S2048 : (⟨S_, .i32⟩ : BufTy).Contents (Elt F) → (⟨S2048, .i32⟩ : BufTy).Contents (Elt F)),
    StableHlo.binary main_v4 main_v8 main_v9 (addi : (⟨S2048, .i32⟩ : BufTy).Contents (Elt F) → (⟨S2048, .i32⟩ : BufTy).Contents (Elt F) → (⟨S2048, .i32⟩ : BufTy).Contents (Elt F)),
    StableHlo.ternary main_v7 main_v9 main_v4 main_v10 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v10 main_v11 (broadcastInDim S2048x1 ![0] bcast_S2048_S2048x1_0 : (⟨S2048, .i32⟩ : BufTy).Contents (Elt F) → (⟨S2048x1, .i32⟩ : BufTy).Contents (Elt F)),
    StableHlo.nullary main_c_4 (constantI S_ 32 1#32),
    StableHlo.unary main_c_4 main_v12 (broadcastInDim S2048 ![] bcast_S_S2048 : (⟨S_, .i32⟩ : BufTy).Contents (Elt F) → (⟨S2048, .i32⟩ : BufTy).Contents (Elt F)),
    StableHlo.ternary main_v5 main_v11 main_v12 main_v13 ((fun x i u => Host.scatter scatter_S265182_S2048x1_S2048_n_0_0_1 IntOp.addi x i u) : (⟨S265182, .i32⟩ : BufTy).Contents (Elt F) → (⟨S2048x1, .i32⟩ : BufTy).Contents (Elt F) → (⟨S2048, .i32⟩ : BufTy).Contents (Elt F) → (⟨S265182, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v13 : TRef sig ⟨S265182, .i32⟩) main_call2.call0.v0 main_call2.call0.v1 (fun x v => Host.reduceWindow IntOp.addi ![265182] ![1] ![265181] ![0] x v reduceWindows_S265182_S265182_w265182s1p265181_0 h_S_),
    StableHlo.nullary main_c_5 (constantI S_ 32 1#32),
    StableHlo.unary main_c_5 main_v15 (broadcastInDim S265182 ![] bcast_S_S265182 : (⟨S_, .i32⟩ : BufTy).Contents (Elt F) → (⟨S265182, .i32⟩ : BufTy).Contents (Elt F)),
    StableHlo.binary main_v14 main_v15 main_v16 (subi : (⟨S265182, .i32⟩ : BufTy).Contents (Elt F) → (⟨S265182, .i32⟩ : BufTy).Contents (Elt F) → (⟨S265182, .i32⟩ : BufTy).Contents (Elt F)),
    StableHlo.TRef.nullary main_call3.c (constantI S_ 32 0#32),
    StableHlo.TRef.unary main_call3.c main_call3.v0 (broadcastInDim S265182 ![] bcast_S_S265182),
    StableHlo.TRef.binary (.of main_v16 : TRef sig ⟨S265182, .i32⟩) main_call3.v0 main_call3.v1 (cmpi .slt),
    StableHlo.TRef.nullary main_call3.c_0 (constantI S_ 32 2048#32),
    StableHlo.TRef.unary main_call3.c_0 main_call3.v2 (broadcastInDim S265182 ![] bcast_S_S265182),
    StableHlo.TRef.binary (.of main_v16 : TRef sig ⟨S265182, .i32⟩) main_call3.v2 main_call3.v3 addi,
    StableHlo.TRef.ternary main_call3.v1 main_call3.v3 (.of main_v16 : TRef sig ⟨S265182, .i32⟩) main_call3.call0.v0 select,
    StableHlo.TRef.unary main_call3.call0.v0 main_call3.v5 (broadcastInDim S265182x1 ![0] bcast_S265182_S265182x1_0),
    StableHlo.TRef.nullary main_call3.c_1 (constantI S1 32 2047#32),
    StableHlo.TRef.nullary main_call3.c_2 (constantI S_ 32 0#32),
    StableHlo.TRef.unary main_call3.c_2 main_call3.v6 (broadcastInDim S265182x1 ![] bcast_S_S265182x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S265182x1 ![0, 1] bcast_S1x1_S265182x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S265182x1_S265182_d1 h_S_),
    StableHlo.TRef.binary (.of main_v0 : TRef sig ⟨S2048, .i32⟩) main_call3.v5 main_call3.v13 (fun x i => Host.gather gather_S2048_S265182x1_S265182_n_0_n_n_0_1_1 x i),
    StableHlo.TRef.nullary main_call3.c_4 (constantI S_ 32 2147483648#32),
    StableHlo.TRef.unary main_call3.c_4 main_call3.v14 (broadcastInDim S265182 ![] bcast_S_S265182),
    StableHlo.TRef.ternary main_call3.v12 main_call3.v13 main_call3.v14 main_call3.v15 select,
    StableHlo.nullary main_cst (constant S_ .f32 0x00000000#32),
    StableHlo.unary main_cst main_v18 (broadcastInDim S2048x256 ![] bcast_S_S2048x256 : (⟨S_, .f32⟩ : BufTy).Contents (Elt F) → (⟨S2048x256, .f32⟩ : BufTy).Contents (Elt F)),
    StableHlo.unary main_v17 main_v19 (broadcastInDim S265182x1 ![0] bcast_S265182_S265182x1_0 : (⟨S265182, .i32⟩ : BufTy).Contents (Elt F) → (⟨S265182x1, .i32⟩ : BufTy).Contents (Elt F)),
    StableHlo.ternary main_v18 main_v19 main_arg0 main_v20 ((fun x i u => Host.scatterAdd scatter_S2048x256_S265182x1_S265182x256_1_0_0_1 x i u) : (⟨S2048x256, .f32⟩ : BufTy).Contents (Elt F) → (⟨S265182x1, .i32⟩ : BufTy).Contents (Elt F) → (⟨S265182x256, .f32⟩ : BufTy).Contents (Elt F) → (⟨S2048x256, .f32⟩ : BufTy).Contents (Elt F)),
    StableHlo.nullary main_c_6 (constantI S_ 32 2147483648#32),
    StableHlo.binary main_arg1 main_c_6 main_v21 ((fun x v => Host.reduce IntOp.maxsi x v reducesTo_S2048_S_d0 h_S_) : (⟨S2048, .i32⟩ : BufTy).Contents (Elt F) → (⟨S_, .i32⟩ : BufTy).Contents (Elt F) → (⟨S_, .i32⟩ : BufTy).Contents (Elt F)),
    StableHlo.unary main_v21 main_v22 (sitofp .f32 : (⟨S_, .i32⟩ : BufTy).Contents (Elt F) → (⟨S_, .f32⟩ : BufTy).Contents (Elt F)),
    StableHlo.unary main_v22 main_v23 (broadcastInDim S2048x256 ![] bcast_S_S2048x256 : (⟨S_, .f32⟩ : BufTy).Contents (Elt F) → (⟨S2048x256, .f32⟩ : BufTy).Contents (Elt F)),
    StableHlo.binary main_v20 main_v23 main_v24 (Host.divf : (⟨S2048x256, .f32⟩ : BufTy).Contents (Elt F) → (⟨S2048x256, .f32⟩ : BufTy).Contents (Elt F) → (⟨S2048x256, .f32⟩ : BufTy).Contents (Elt F)) ]

-- sixty-one binds re-associated: the rewrite under the chain recurses once per statement
set_option maxRecDepth 2048 in
/-- @main is that straight line: the functions' definitions unfolded at their calls and the records at their fields,
    both sides are one chain of host steps once sequencing is reassociated. -/
theorem main_eq (c : Dev nD) : main (F := F) c = seq ops := by
  simp only [main, fn_roll_static.body, fn_cumsum_0.body, fn_cumsum.body, fn_cumsum_2.body, fn_cumsum_1.body,
    fn_where.body, fn_take.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., binary_bufs_sub .., nullary_bufs_sub .., unary_bufs_sub ..,
    nullary_bufs_sub .., ternary_bufs_sub .., nullary_bufs_sub .., unary_bufs_sub .., binary_bufs_sub .., nullary_bufs_sub ..,
    unary_bufs_sub .., nullary_bufs_sub .., unary_bufs_sub .., binary_bufs_sub .., nullary_bufs_sub .., unary_bufs_sub ..,
    binary_bufs_sub .., ternary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub .., nullary_bufs_sub .., unary_bufs_sub ..,
    unary_bufs_sub .., ternary_bufs_sub .., nullary_bufs_sub .., binary_bufs_sub .., unary_bufs_sub .., unary_bufs_sub ..,
    binary_bufs_sub ..⟩

/-- At the compiled mesh, for any float values, from any memory with zero counters: every weakly fair execution of
    @main on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.gather Host.scatter Host.reduceWindow Host.scatterAdd concatenate extractStridedSlice broadcastInDim in
set_option maxRecDepth 8192 in
set_option maxHeartbeats 400000 in
theorem arg0_eq (V : Valuation τ sig (Elt F)) :
    after ops V (main_arg0 : DevRef τ sig) = V (main_arg0 : DevRef τ sig) := by
  simp only [after_cons, after_nil]
  rfl

attribute [local irreducible] Host.reduce Host.gather Host.scatter Host.reduceWindow Host.scatterAdd concatenate extractStridedSlice broadcastInDim in
set_option maxRecDepth 8192 in
set_option maxHeartbeats 400000 in
theorem arg1_eq (V : Valuation τ sig (Elt F)) :
    after ops V (main_arg1 : DevRef τ sig) = V (main_arg1 : DevRef τ sig) := by
  simp only [after_cons, after_nil]
  rfl

/-- The run leaves the two argument arrays as they were. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c => ⟨(h c main_arg0).trans (arg0_eq _), (h c main_arg1).trans (arg1_eq _)⟩) (run_main m ρ)

/-! ## The result, one operation at a time

Each equation reads one buffer of the fold back as its operation applied to the fold at the operands' buffers. They
hold for any float values; the statements a value proof uses are their instances at the extended reals. -/

attribute [local irreducible] Host.reduce Host.gather Host.scatter Host.reduceWindow Host.scatterAdd concatenate extractStridedSlice broadcastInDim in
set_option maxRecDepth 8192 in
set_option maxHeartbeats 400000 in
theorem out_eqF (V : Valuation τ sig (Elt F)) :
    after ops V (main_v24 : DevRef τ sig)
      = Host.divf (F := F) (s := S2048x256) (φ := .f32) (after ops V (main_v20 : DevRef τ sig)) (after ops V (main_v23 : DevRef τ sig)) := by
  simp only [after_cons, after_nil]
  rfl

attribute [local irreducible] Host.reduce Host.gather Host.scatter Host.reduceWindow Host.scatterAdd concatenate extractStridedSlice broadcastInDim in
set_option maxRecDepth 8192 in
set_option maxHeartbeats 400000 in
theorem acc_eqF (V : Valuation τ sig (Elt F)) :
    after ops V (main_v20 : DevRef τ sig)
      = Host.scatterAdd (F := F) (φ := .f32) scatter_S2048x256_S265182x1_S265182x256_1_0_0_1
          (after ops V (main_v18 : DevRef τ sig)) (after ops V (main_v19 : DevRef τ sig)) (V (main_arg0 : DevRef τ sig)) := by
  simp only [after_cons, after_nil]
  rfl

attribute [local irreducible] Host.reduce Host.gather Host.scatter Host.reduceWindow Host.scatterAdd concatenate extractStridedSlice broadcastInDim in
set_option maxRecDepth 8192 in
set_option maxHeartbeats 400000 in
theorem zeros_termF (V : Valuation τ sig (Elt F)) :
    after ops V (main_v18 : DevRef τ sig)
      = broadcastInDim S2048x256 ![] bcast_S_S2048x256 (constant (F := F) S_ .f32 0x00000000#32) := by
  simp only [after_cons, after_nil]
  rfl

attribute [local irreducible] Host.reduce Host.gather Host.scatter Host.reduceWindow Host.scatterAdd concatenate extractStridedSlice broadcastInDim in
set_option maxRecDepth 8192 in
set_option maxHeartbeats 400000 in
theorem idx_termF (V : Valuation τ sig (Elt F)) :
    after ops V (main_v19 : DevRef τ sig)
      = broadcastInDim S265182x1 ![0] bcast_S265182_S265182x1_0 (after ops V (main_v17 : DevRef τ sig) : S265182.Idx → BitVec 32) := by
  simp only [after_cons, after_nil]
  rfl

set_option maxRecDepth 8192 in
set_option maxHeartbeats 400000 in
theorem den_eqF (V : Valuation τ sig (Elt F)) :
    after ops V (main_v23 : DevRef τ sig)
      = broadcastInDim S2048x256 ![] bcast_S_S2048x256
          (sitofp (F := F) .f32
            (Host.reduce IntOp.maxsi (V (main_arg1 : DevRef τ sig) : S2048.Idx → BitVec 32) (constantI S_ 32 2147483648#32)
              reducesTo_S2048_S_d0 h_S_)) := by
  after_results_simp

/-- The broadcast of the float constant with all bits clear reads the real zero everywhere. -/
theorem zeros_apply (i : S2048x256.Idx) :
    broadcastInDim S2048x256 ![] bcast_S_S2048x256 (constant (F := Ideal) S_ .f32 0x00000000#32) i = (0 : EReal) :=
  Ideal.ofBits_zero_f32

/-- A vector broadcast to a column reads, at row `r` of the column, its own element `r`. -/
theorem bcast_col_apply (w : S265182.Idx → BitVec 32) (r : Fin 265182) :
    broadcastInDim S265182x1 ![0] bcast_S265182_S265182x1_0 w (ValueIdx.ix2 r (0 : Fin 1)) = w (ValueIdx.ix1 r) := by
  show w _ = w _
  congr 1
  funext a
  match a with
  | ⟨0, _⟩ => rfl

/-- The result is the quotient of the accumulated sums by the divisor array. -/
theorem out_eq (V : Valuation τ sig (Elt Ideal)) :
    after ops V (main_v24 : DevRef τ sig)
      = Host.divf (F := Ideal) (s := S2048x256) (φ := .f32) (after ops V (main_v20 : DevRef τ sig)) (after ops V (main_v23 : DevRef τ sig)) :=
  out_eqF V

/-- The accumulated sums are the scatter-add of the node array's rows into the zeros, at the index column. -/
theorem acc_eq (V : Valuation τ sig (Elt Ideal)) :
    after ops V (main_v20 : DevRef τ sig)
      = Host.scatterAdd (F := Ideal) (φ := .f32) scatter_S2048x256_S265182x1_S265182x256_1_0_0_1
          (after ops V (main_v18 : DevRef τ sig)) (after ops V (main_v19 : DevRef τ sig)) (V (main_arg0 : DevRef τ sig)) :=
  acc_eqF V

/-- The array the rows are added into is zero everywhere. -/
theorem zeros_eq (V : Valuation τ sig (Elt Ideal)) :
    after ops V (main_v18 : DevRef τ sig) = fun (_ : S2048x256.Idx) => (0 : EReal) := by
  rw [zeros_termF]
  exact funext zeros_apply

/-- The index column holds, at row `r`, the segment word of row `r`. -/
theorem idx_eq (V : Valuation τ sig (Elt Ideal)) (r : Fin 265182) :
    (after ops V (main_v19 : DevRef τ sig) : S265182x1.Idx → BitVec 32) (ValueIdx.ix2 r (0 : Fin 1))
      = (after ops V (main_v17 : DevRef τ sig) : S265182.Idx → BitVec 32) (ValueIdx.ix1 r) := by
  rw [idx_termF]
  exact bcast_col_apply _ r

/-- The divisor array is the largest graph length (the signed maximum of the lengths, from the least integer), as a
    float, broadcast. -/
theorem den_eq (V : Valuation τ sig (Elt Ideal)) :
    after ops V (main_v23 : DevRef τ sig)
      = broadcastInDim S2048x256 ![] bcast_S_S2048x256
          (sitofp (F := Ideal) .f32
            (Host.reduce IntOp.maxsi (V (main_arg1 : DevRef τ sig) : S2048.Idx → BitVec 32) (constantI S_ 32 2147483648#32)
              reducesTo_S2048_S_d0 h_S_)) :=
  den_eqF V

end Cert.ReferenceIdeal.RefRun

end
-- ==== Proof.SegScatter.lean ====
/-
  A scatter-add of whole rows into an array of zeros is the array of per-graph sums. Update row `r` lands, column by column, in the
  row named by its index word read signed, and is dropped when that row is outside `[0, 2048)`; so entry `(g, d)` collects column `d`
  of exactly the rows whose word is `g`.
-/
import proofs.«134707_j6468220748681_2_alg».proof.Proof.SegSpec

noncomputable section

open scoped BigOperators

namespace Cert.SegSpec

open Idealize.ShloMosaic Idealize.ShloMosaic.ValueIdx

/-- The start index of update `(r, d)` is read at `(r, 0)` of the index array, whichever component is asked for (there is one). -/
theorem rowScatter_siIdx (r : Fin 265182) (d : Fin 256)
    (c : Fin rowScatter.scatterDimsToOperandDims.length) :
    rowScatter.siIdx (ix2 r d) c = ix2 r (0 : Fin 1) := by
  funext b
  match b with
  | ⟨0, _⟩ => rfl
  | ⟨1, _⟩ =>
    apply Fin.ext
    have hc : c.val < 1 := c.isLt
    show c.val = 0
    omega

/-- On the row axis the window of update `(r, d)` starts at the index word of row `r`, read signed. -/
theorem rowScatter_start0 (idx : IVec SNx1 32) (r : Fin 265182) (d : Fin 256) :
    rowScatter.start (ix2 r d) idx (0 : Fin 2) = (idx (ix2 r (0 : Fin 1))).toInt := by
  unfold ScatterDims.start
  split
  · rw [rowScatter_siIdx]
  · next h => exact absurd (by decide) h

/-- On the column axis the window starts at zero. -/
theorem rowScatter_start1 (idx : IVec SNx1 32) (r : Fin 265182) (d : Fin 256) :
    rowScatter.start (ix2 r d) idx (1 : Fin 2) = 0 := by
  unfold ScatterDims.start
  split
  · next h => exact absurd h (by decide)
  · rfl

/-- The row axis is an inserted axis: the window coordinate there is zero. -/
theorem rowScatter_window0 (r : Fin 265182) (d : Fin 256) :
    rowScatter.window (ix2 r d) (0 : Fin 2) = 0 := rfl

/-- On the column axis the window coordinate of update `(r, d)` is `d`. -/
theorem rowScatter_window1 (r : Fin 265182) (d : Fin 256) :
    rowScatter.window (ix2 r d) (1 : Fin 2) = d.val := rfl

/-- Update `(r, d)` lands at `(g, d')` exactly when the index word of row `r`, read signed, is `g` and `d = d'`. -/
theorem rowScatter_resultIdx (idx : IVec SNx1 32) (r : Fin 265182) (d : Fin 256) (g : Fin 2048) (d' : Fin 256) :
    rowScatter.resultIdx? (ix2 r d) idx = some (ix2 g d')
      ↔ (idx (ix2 r (0 : Fin 1))).toInt = (g.val : Int) ∧ d = d' := by
  have hg := g.isLt
  have hd := d.isLt
  have hd' := d'.isLt
  unfold ScatterDims.resultIdx?
  split
  · next h =>
    rw [Option.some.injEq]
    constructor
    · intro heq
      have e0 : (rowScatter.start (ix2 r d) idx (0 : Fin 2)
          + (rowScatter.window (ix2 r d) (0 : Fin 2) : Nat)).toNat = g.val :=
        congrArg Fin.val (congrFun heq (0 : Fin 2))
      have e1 : (rowScatter.start (ix2 r d) idx (1 : Fin 2)
          + (rowScatter.window (ix2 r d) (1 : Fin 2) : Nat)).toNat = d'.val :=
        congrArg Fin.val (congrFun heq (1 : Fin 2))
      have b0 : 0 ≤ rowScatter.start (ix2 r d) idx (0 : Fin 2)
          + (rowScatter.window (ix2 r d) (0 : Fin 2) : Nat) := (h (0 : Fin 2)).1
      rw [rowScatter_start0, rowScatter_window0] at e0 b0
      rw [rowScatter_start1, rowScatter_window1] at e1
      exact ⟨by omega, Fin.ext (by omega)⟩
    · rintro ⟨ht, rfl⟩
      funext a
      match a with
      | ⟨0, _⟩ =>
        apply Fin.ext
        show (rowScatter.start (ix2 r d) idx (0 : Fin 2)
          + (rowScatter.window (ix2 r d) (0 : Fin 2) : Nat)).toNat = g.val
        rw [rowScatter_start0, rowScatter_window0, ht]
        omega
      | ⟨1, _⟩ =>
        apply Fin.ext
        show (rowScatter.start (ix2 r d) idx (1 : Fin 2)
          + (rowScatter.window (ix2 r d) (1 : Fin 2) : Nat)).toNat = d.val
        rw [rowScatter_start1, rowScatter_window1]
        omega
  · next h =>
    constructor
    · intro h'
      cases h'
    · rintro ⟨ht, rfl⟩
      exfalso
      apply h
      intro a
      match a with
      | ⟨0, _⟩ =>
        show 0 ≤ rowScatter.start (ix2 r d) idx (0 : Fin 2)
              + (rowScatter.window (ix2 r d) (0 : Fin 2) : Nat) ∧
            rowScatter.start (ix2 r d) idx (0 : Fin 2)
              + (rowScatter.window (ix2 r d) (0 : Fin 2) : Nat) < ((2048 : Nat) : Int)
        rw [rowScatter_start0, rowScatter_window0, ht]
        omega
      | ⟨1, _⟩ =>
        show 0 ≤ rowScatter.start (ix2 r d) idx (1 : Fin 2)
              + (rowScatter.window (ix2 r d) (1 : Fin 2) : Nat) ∧
            rowScatter.start (ix2 r d) idx (1 : Fin 2)
              + (rowScatter.window (ix2 r d) (1 : Fin 2) : Nat) < ((256 : Nat) : Int)
        rw [rowScatter_start1, rowScatter_window1]
        omega

theorem scatterAdd_rows (idx : IVec SNx1 32) (emb : SNxD.Idx → EReal) (seg : SN.Idx → BitVec 32)
    (hidx : ∀ r : Fin 265182, idx (ix2 r (0 : Fin 1)) = seg (ix1 r)) :
    Ideal.hostScatterAdd rowScatter (fun _ => (0 : EReal)) idx emb = segSum seg emb := by
  funext i
  obtain ⟨g, d, rfl⟩ : ∃ (g : Fin 2048) (d : Fin 256), i = ix2 g d := ⟨i 0, i 1, eq_ix2 i⟩
  rw [segSum_ix2]
  show (0 : EReal) + ∑ j ∈ Finset.univ.filter
      (fun j => rowScatter.resultIdx? j idx = some (ix2 g d)), emb j = segSumAt seg emb g d
  rw [zero_add, Finset.sum_filter, sum_idx2]
  unfold segSumAt
  refine Finset.sum_congr rfl (fun r _ => ?_)
  simp only [rowScatter_resultIdx, hidx]
  by_cases ht : (seg (ix1 r)).toInt = (g.val : Int)
  · simp only [ht, true_and]
    rw [Finset.sum_ite_eq']
    simp
  · simp only [ht, false_and, if_false, Finset.sum_const_zero]

end Cert.SegSpec

end
-- ==== Proof.SegAgree.lean ====
/-
  The two programs compute the same segment words. Each builds them from the graphs' lengths by the same chain of integer
  operations — the lengths rotated by one place, a running sum, a scatter-add of ones, a second running sum, a subtraction and a
  table look-up — so from equal lengths the two chains, read back operation by operation, are the same term.
-/
import proofs.«134707_j6468220748681_2_alg».proof.Proof.Gen.KernelIdeal.Launch
import proofs.«134707_j6468220748681_2_alg».proof.Proof.RefRun
import Idealize.ShloMosaic.Lib.StableHlo.Run

noncomputable section

namespace Cert.SegAgree

open Idealize.ShloMosaic Idealize.ShloMosaic.TcCoe Idealize.SL.Sem Idealize.ShloMosaic.StableHlo

-- the operations on the long arrays are compared argument by argument and never opened
set_option maxHeartbeats 1000000 in
set_option maxRecDepth 8192 in
attribute [local irreducible] Host.reduceWindow Host.scatter Host.gather Host.reduce concatenate extractStridedSlice in
/-- From launch memories that agree on the lengths, the reference's segment words and the kernel program's are equal. -/
theorem seg_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev 1)
    (hag : m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1)) :
    (StableHlo.after (Cert.ReferenceIdeal.RefRun.ops (F := Ideal)) (launchContents m' c)
        (Cert.ReferenceIdeal.main_v17 : DevRef Cert.ReferenceIdeal.τ Cert.ReferenceIdeal.sig)
        : (⟨1, ![265182]⟩ : Shape).Idx → BitVec 32)
      = StableHlo.after (List.flatten [Cert.KernelIdeal.Gen.hostOps0, Cert.KernelIdeal.Gen.hostOps0_1,
          Cert.KernelIdeal.Gen.hostOps0_2, Cert.KernelIdeal.Gen.hostOps0_3, Cert.KernelIdeal.Gen.hostOps0_4,
          Cert.KernelIdeal.Gen.hostOps0_5, Cert.KernelIdeal.Gen.hostOps0_6, Cert.KernelIdeal.Gen.hostOps0_7])
          (fun b => m (c, b)) (Proc.devRef .tc Cert.KernelIdeal.main_v17) := by
  have hag' : launchContents m' c (Proc.devRef .tc Cert.ReferenceIdeal.main_arg1)
      = m (c, Proc.devRef .tc Cert.KernelIdeal.main_arg1) := hag
  -- both lines as literal lists of operations
  simp only [Cert.ReferenceIdeal.RefRun.ops, Cert.KernelIdeal.Gen.hostOps0, Cert.KernelIdeal.Gen.hostOps0_1,
    Cert.KernelIdeal.Gen.hostOps0_2, Cert.KernelIdeal.Gen.hostOps0_3, Cert.KernelIdeal.Gen.hostOps0_4,
    Cert.KernelIdeal.Gen.hostOps0_5, Cert.KernelIdeal.Gen.hostOps0_6, Cert.KernelIdeal.Gen.hostOps0_7,
    List.flatten_cons, List.flatten_nil, List.append_nil, List.cons_append, List.nil_append]
  -- each operation's result read at its own buffer, every other buffer passed through
  after_results_simp
  -- the two slices under the concatenation's list of pieces, which the pass above does not enter
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  rw [hag']
  rfl

end Cert.SegAgree

end
-- ==== Proof.Claims.lean ====
/-
  The five claims. Both idealized programs compute the same array: the per-graph sums of the node array's rows — each row
  counted for the graph its segment word names, a word outside the graphs' range counted for none — divided entry by entry by
  the largest graph length. The kernel reaches the sums tile by tile through indicator matrix products accumulated over the
  tiles; the reference reaches them by one scatter-add of the rows into zeros. Over the extended reals a finite sum does not
  depend on its arrangement, so the two agree for every input; both programs compute the segment words from the graph
  lengths by the same chain of integer operations, which is never opened.
-/
import proofs.«134707_j6468220748681_2_alg».proof.Defs
import proofs.«134707_j6468220748681_2_alg».proof.Proof.Gen.Kernel.Frame
import proofs.«134707_j6468220748681_2_alg».proof.Proof.Gen.KernelIdeal.Frame
import proofs.«134707_j6468220748681_2_alg».proof.Proof.Gen.ReferenceIdeal
import proofs.«134707_j6468220748681_2_alg».proof.Proof.Gen.Pre_finite_inputs
import proofs.«134707_j6468220748681_2_alg».proof.Proof.KFinal
import proofs.«134707_j6468220748681_2_alg».proof.Proof.RefRun
import proofs.«134707_j6468220748681_2_alg».proof.Proof.SegScatter
import proofs.«134707_j6468220748681_2_alg».proof.Proof.SegAgree

noncomputable section

open Idealize.ShloMosaic Idealize.ShloMosaic.TcCoe Idealize.SL.Sem Idealize.ShloMosaic.StableHlo

namespace Cert.Proof.Claims

open Cert.SegSpec Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.RefRun.frame m ρ

/-- The idealization rewrote nothing. -/
theorem preserves : Cert.preserves_Kernel_KernelIdeal := trivial

/-- The reference's result is the same quotient of the same sums. -/
theorem ref_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev 1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    after (Cert.ReferenceIdeal.RefRun.ops (F := Ideal)) (launchContents m' c) (Cert.ReferenceIdeal.main_v24 : DevRef Cert.ReferenceIdeal.τ Cert.ReferenceIdeal.sig)
      = Host.divf (F := Ideal) (φ := .f32) (segSum (Cert.KernelIdeal.KVal.segK m c) (Cert.KernelIdeal.KVal.emb0 m c))
          (Cert.KernelIdeal.KVal.denom (m ((c : Thread Cert.KernelIdeal.nD Cert.KernelIdeal.τ).loc Cert.KernelIdeal.main_arg1))) := by
  rw [Cert.ReferenceIdeal.RefRun.out_eq, Cert.ReferenceIdeal.RefRun.acc_eq, Cert.ReferenceIdeal.RefRun.den_eq, Cert.ReferenceIdeal.RefRun.zeros_eq]
  have hs : Host.scatterAdd (F := Ideal) (φ := .f32) Cert.ReferenceIdeal.scatter_S2048x256_S265182x1_S265182x256_1_0_0_1 (fun (_ : Cert.ReferenceIdeal.S2048x256.Idx) => (0 : EReal))
        (after (Cert.ReferenceIdeal.RefRun.ops (F := Ideal)) (launchContents m' c) (Cert.ReferenceIdeal.main_v19 : DevRef Cert.ReferenceIdeal.τ Cert.ReferenceIdeal.sig))
        (launchContents m' c (Cert.ReferenceIdeal.main_arg0 : DevRef Cert.ReferenceIdeal.τ Cert.ReferenceIdeal.sig))
      = segSum (Cert.KernelIdeal.KVal.segK m c) (Cert.KernelIdeal.KVal.emb0 m c) := by
    refine (scatterAdd_rows _ _ (after (Cert.ReferenceIdeal.RefRun.ops (F := Ideal)) (launchContents m' c) (Cert.ReferenceIdeal.main_v17 : DevRef Cert.ReferenceIdeal.τ Cert.ReferenceIdeal.sig))
      (fun r => Cert.ReferenceIdeal.RefRun.idx_eq _ r)).trans ?_
    rw [Cert.SegAgree.seg_agree m m' c h1]
    exact congrArg (segSum _) h0
  rw [hs]
  exact congrArg (fun gl => Host.divf (F := Ideal) (φ := .f32) (segSum (Cert.KernelIdeal.KVal.segK m c) (Cert.KernelIdeal.KVal.emb0 m c)) (Cert.KernelIdeal.KVal.denom gl)) h1

/-- From memories agreeing on the arguments the two idealized programs end with equal results. -/
theorem algebraic : Cert.algebraic_KernelIdeal_ReferenceIdeal := by
  intro m ρ m' ρ' _ hagree
  refine ⟨fun c => Host.divf (F := Ideal) (φ := .f32) (segSum (Cert.KernelIdeal.KVal.segK m c) (Cert.KernelIdeal.KVal.emb0 m c))
      (Cert.KernelIdeal.KVal.denom (m ((c : Thread Cert.KernelIdeal.nD Cert.KernelIdeal.τ).loc Cert.KernelIdeal.main_arg1))),
    Cert.KernelIdeal.KVal.run m ρ, ?_⟩
  refine (θ_run Cert.ReferenceIdeal.defs _ _).mono (fun _ h c => ?_) (Cert.ReferenceIdeal.RefRun.run_main (F := Ideal) m' ρ')
  exact ⟨(h c Cert.ReferenceIdeal.main_v24).trans (ref_result m m' c (hagree c).1 (hagree c).2),
    (h c Cert.ReferenceIdeal.main_arg0).trans (Cert.ReferenceIdeal.RefRun.arg0_eq _),
    (h c Cert.ReferenceIdeal.main_arg1).trans (Cert.ReferenceIdeal.RefRun.arg1_eq _)⟩

end Cert.Proof.Claims

end
-- ==== Proof.lean ====
/-
  The certificate's five claims, assembled. A kernel computes, for each of 2048 graphs, the sum of the rows of a node array
  that belong to it, by indicator matrix products accumulated over 130 tiles of rows, and divides by the largest graph length;
  the reference computes the same sums by one scatter-add of the rows and divides by the same number. Read over the extended
  reals the two results are equal entry by entry (Proof/Claims.lean); each program terminates without a fault and leaves its
  arguments unchanged; the idealization rewrote nothing.
-/
import proofs.«134707_j6468220748681_2_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
